-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x16384 : Shape := ⟨3, ![16, 128, 16384]⟩
abbrev S_ : Shape := ⟨0, ![]⟩

class Facts : Prop where
  bcast_S_S16x128x16384 : S_.BroadcastsInDim S16x128x16384 (![] : Fin 0 → Fin S16x128x16384.rank)
  reducesTo_S16x128x16384_S_d0_1_2 : S16x128x16384.ReducesTo [0, 1, 2] S_
  h_S_ : 0 < S_.numel

variable [Facts]

def fn {F : FTy → Type} [FloatOps F] (main_arg0 : FVec F S16x128x16384 .f32) (main_arg1 : FVec F S16x128x16384 .f32) : IVec S_ 1 :=
  let main_v0 : FVec F S16x128x16384 .f32 := Host.absf main_arg0
  let main_cst : FVec F S_ .f32 := constant S_ .f32 0x7F800000#32
  let main_v1 : FVec F S16x128x16384 .f32 := broadcastInDim S16x128x16384 ![] bcast_S_S16x128x16384 main_cst
  let main_v2 : IVec S16x128x16384 1 := cmpf .olt main_v0 main_v1
  let main_c : IVec S_ 1 := constantI S_ 1 1#1
  let main_v3 : IVec S_ 1 := (fun x v => Host.reduce IntOp.andi x v reducesTo_S16x128x16384_S_d0_1_2 h_S_) main_v2 main_c
  let main_v4 : FVec F S16x128x16384 .f32 := Host.absf main_arg1
  let main_cst_0 : FVec F S_ .f32 := constant S_ .f32 0x7F800000#32
  let main_v5 : FVec F S16x128x16384 .f32 := broadcastInDim S16x128x16384 ![] bcast_S_S16x128x16384 main_cst_0
  let main_v6 : IVec S16x128x16384 1 := cmpf .olt main_v4 main_v5
  let main_c_1 : IVec S_ 1 := constantI S_ 1 1#1
  let main_v7 : IVec S_ 1 := (fun x v => Host.reduce IntOp.andi x v reducesTo_S16x128x16384_S_d0_1_2 h_S_) main_v6 main_c_1
  let main_v8 : IVec S_ 1 := andi main_v3 main_v7
  main_v8
-- ==== Kernel.lean ====
abbrev S16x128x16384 : Shape := ⟨3, ![16, 128, 16384]⟩
abbrev S16x1x128 : Shape := ⟨3, ![16, 1, 128]⟩
abbrev S1x128x8192 : Shape := ⟨3, ![1, 128, 8192]⟩
abbrev S1x1x128 : Shape := ⟨3, ![1, 1, 128]⟩
abbrev S256x256 : Shape := ⟨2, ![256, 256]⟩
abbrev S128x1 : Shape := ⟨2, ![128, 1]⟩
abbrev S128x8192 : Shape := ⟨2, ![128, 8192]⟩
abbrev S128 : Shape := ⟨1, ![128]⟩
abbrev S256x8192 : Shape := ⟨2, ![256, 8192]⟩
abbrev S1x128 : Shape := ⟨2, ![1, 128]⟩
abbrev S128x128 : Shape := ⟨2, ![128, 128]⟩
abbrev S1 : Shape := ⟨1, ![1]⟩
abbrev S1x1 : Shape := ⟨2, ![1, 1]⟩
abbrev S1x125 : Shape := ⟨2, ![1, 125]⟩
abbrev S16x1x3 : Shape := ⟨3, ![16, 1, 3]⟩
abbrev S16x3 : Shape := ⟨2, ![16, 3]⟩
abbrev S_ : Shape := ⟨0, ![]⟩
abbrev S3 : Shape := ⟨1, ![3]⟩

abbrev nBuf : Space → Nat
  | .hbm => 23
  | .vmem => 9
  | .smem => 0
  | _ => 0

abbrev bufTy : (tb : Table) → Fin (tcTables nBuf tb) → BufTy
  | .hbm, ⟨0, _⟩ => ⟨S16x128x16384, .f32⟩
  | .hbm, ⟨1, _⟩ => ⟨S16x128x16384, .f32⟩
  | .hbm, ⟨2, _⟩ => ⟨S16x1x128, .f32⟩
  | .hbm, ⟨3, _⟩ => ⟨S16x1x3, .f32⟩
  | .hbm, ⟨4, _⟩ => ⟨S16x3, .f32⟩
  | .hbm, ⟨5, _⟩ => ⟨S_, .f32⟩
  | .hbm, ⟨6, _⟩ => ⟨S3, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x128x8192, .f32⟩
  | .local _ .vmem, ⟨1, _⟩ => ⟨S1x128x8192, .f32⟩
  | .local _ .vmem, ⟨2, _⟩ => ⟨S1x128x8192, .f32⟩
  | .local _ .vmem, ⟨3, _⟩ => ⟨S1x128x8192, .f32⟩
  | .local _ .vmem, ⟨4, _⟩ => ⟨S1x1x128, .f32⟩
  | .local _ .vmem, ⟨5, _⟩ => ⟨S1x1x128, .f32⟩
  | .local _ .vmem, ⟨6, _⟩ => ⟨S256x256, .f32⟩
  | .local _ .vmem, ⟨7, _⟩ => ⟨S128x1, .f32⟩
  | .local _ .vmem, ⟨8, _⟩ => ⟨S128x1, .f32⟩
  | _, _ => ⟨S16x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v31 : BitVec 1 := Scalar.cmpi .eq arg1 c1_i32
  let v32 : BitVec 32 := Scalar.extui v31
  let c0_i32_20 : BitVec 32 := 0#32
  let v33 : BitVec 1 := Scalar.cmpi .ne v32 c0_i32_20
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  reduces_S128x8192_S128 : S128x8192.Reduces [1] S128
  shapeCasts_S128_S128x1 : S128.ShapeCasts S128x1
  concatenates_S128x8192_S128x8192_S256x8192_d0 : Shape.Concatenates [S128x8192, S128x8192] S256x8192 0
  bitsLt_bf16_f32 : FTy.bits .bf16 < FTy.bits .f32
  transposes_S128x1_p1_0_S1x128 : S128x1.Transposes [1, 0] S1x128
  slices_S256x256_o0_0_S128x128 : S256x256.Slices ![0, 0] S128x128
  slices_S256x256_o0_128_S128x128 : S256x256.Slices ![0, 128] S128x128
  slices_S256x256_o128_128_S128x128 : S256x256.Slices ![128, 128] S128x128
  broadcasts_S128x1_S128x128 : S128x1.Broadcasts S128x128
  broadcasts_S1x128_S128x128 : S1x128.Broadcasts S128x128
  reduces_S128x128_S128 : S128x128.Reduces [1] S128
  reduces_S128x1_S1 : S128x1.Reduces [0] S1
  shapeCasts_S1_S1x1 : S1.ShapeCasts S1x1
  concatenates_S1x1_S1x1_S1x1_S1x125_S1x128_d1 : Shape.Concatenates [S1x1, S1x1, S1x1, S1x125] S1x128 1
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  slices_S16x1x128_S16x1x3_0_0_0 : S16x1x128.Slices ![0, 0, 0] S16x1x3
  shapeCasts_S16x1x3_S16x3 : S16x1x3.ShapeCasts S16x3
  reducesTo_S16x3_S3_d0 : S16x3.ReducesTo [0] S3
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  dot_S256x8192_S256x8192_S256x256_1_1_0_0_n_n_wf : DotDims.WF S256x8192 S256x8192 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8192.size a ≤ S16x128x16384.size a
  hwx0_0 : ∀ i : grid0.Coords, EltTy.bits .f32 = 32 ∨ (Rect.block (s := S16x128x16384) S1x128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x8192.size a ≤ S16x128x16384.size a
  hwx0_1 : ∀ i : grid0.Coords, EltTy.bits .f32 = 32 ∨ (Rect.block (s := S16x128x16384) S1x128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

def dot_S256x8192_S256x8192_S256x256_1_1_0_0_n_n : DotDims S256x8192 S256x8192 S256x256 where
  lhsContracting := [1]
  rhsContracting := [1]
  lhsNonContracting := [0]
  rhsNonContracting := [0]
  lhsBatch := []
  rhsBatch := []
  wf := dot_S256x8192_S256x8192_S256x256_1_1_0_0_n_n_wf

abbrev win0_0 : Pipeline.Window sig grid0 :=
  Pipeline.Window.ofSpec (Memref.whole main_arg0) S1x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x128x16384 : Shape := ⟨3, ![16, 128, 16384]⟩
abbrev S_ : Shape := ⟨0, ![]⟩
abbrev S16x128 : Shape := ⟨2, ![16, 128]⟩
abbrev S16x128x1 : Shape := ⟨3, ![16, 128, 1]⟩
abbrev S16x128x128 : Shape := ⟨3, ![16, 128, 128]⟩

abbrev nBuf : Space → Nat
  | .hbm => 44
  | .vmem => 0
  | .smem => 0
  | _ => 0

abbrev bufTy : (tb : Table) → Fin (tcTables nBuf tb) → BufTy
  | .hbm, ⟨0, _⟩ => ⟨S16x128x16384, .f32⟩
  | .hbm, ⟨1, _⟩ => ⟨S16x128x16384, .f32⟩
  | .hbm, ⟨2, _⟩ => ⟨S16x128x16384, .f32⟩
  | .hbm, ⟨3, _⟩ => ⟨S_, .f32⟩
  | .hbm, ⟨4, _⟩ => ⟨S16x128, .f32⟩
  | .hbm, ⟨5, _⟩ => ⟨S16x128x1, .f32⟩
  | .hbm, ⟨6, _⟩ => ⟨S16x128x1, .f32⟩
  | .hbm, ⟨7, _⟩ => ⟨S_, .f32⟩
  | .hbm, ⟨8, _⟩ => ⟨S16x128x1, .f32⟩
  | .hbm, ⟨9, _⟩ => ⟨S16x128x1, .f32⟩
  | .hbm, ⟨10, _⟩ => ⟨S16x128x16384, .f32⟩
  | .hbm, ⟨11, _⟩ => ⟨S16x128x16384, .f32⟩
  | .hbm, ⟨12, _⟩ => ⟨S16x128x16384, .f32⟩
  | .hbm, ⟨13, _⟩ => ⟨S_, .f32⟩
  | .hbm, ⟨14, _⟩ => ⟨S16x128, .f32⟩
  | .hbm, ⟨15, _⟩ => ⟨S16x128x1, .f32⟩
  | .hbm, ⟨16, _⟩ => ⟨S16x128x1, .f32⟩
  | .hbm, ⟨17, _⟩ => ⟨S_, .f32⟩
  | .hbm, ⟨18, _⟩ => ⟨S16x128x1, .f32⟩
  | .hbm, ⟨19, _⟩ => ⟨S16x128x1, .f32⟩
  | .hbm, ⟨20, _⟩ => ⟨S16x128x16384, .f32⟩
  | .hbm, ⟨21, _⟩ => ⟨S16x128x16384, .f32⟩
  | .hbm, ⟨22, _⟩ => ⟨S16x128x128, .f32⟩
  | .hbm, ⟨23, _⟩ => ⟨S16x128x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16x128x128, .f32⟩
  | .hbm, ⟨29, _⟩ => ⟨S16x128x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S16x128x128, .f32⟩
  | .hbm, ⟨36, _⟩ => ⟨S16x128x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]

class Facts₀ : Prop where
  reducesTo_S16x128x16384_S16x128_d2 : S16x128x16384.ReducesTo [2] S16x128
  h_S_ : 0 < S_.numel
  bcast_S16x128_S16x128x1_0_1 : S16x128.BroadcastsInDim S16x128x1 (![0, 1] : Fin 2 → Fin S16x128x1.rank)
  bcast_S_S16x128x1 : S_.BroadcastsInDim S16x128x1 (![] : Fin 0 → Fin S16x128x1.rank)
  bcast_S16x128x1_S16x128x16384_0_1_2 : S16x128x1.BroadcastsInDim S16x128x16384 (![0, 1, 2] : Fin 3 → Fin S16x128x16384.rank)
  reducesTo_S16x128x128_S_d0_1_2 : S16x128x128.ReducesTo [0, 1, 2] S_
  dot_S16x128x16384_S16x128x16384_S16x128x128_2_2_1_1_0_0_wf : DotDims.WF S16x128x16384 S16x128x16384 S16x128x128 [2] [2] [1] [1] [0] [0]

variable [Facts₀]

def dot_S16x128x16384_S16x128x16384_S16x128x128_2_2_1_1_0_0 : DotDims S16x128x16384 S16x128x16384 S16x128x128 where
  lhsContracting := [2]
  rhsContracting := [2]
  lhsNonContracting := [1]
  rhsNonContracting := [1]
  lhsBatch := [0]
  rhsBatch := [0]
  wf := dot_S16x128x16384_S16x128x16384_S16x128x128_2_2_1_1_0_0_wf

class Facts : Prop extends Facts₀ where

variable [Facts]
-- ==== Proof.Pieces.lean ====
/-
  The kernel body, case by case, read back as values: what the two cases of the body (a first time tile, a last time
  tile) leave in the three accumulators carried across the time axis — the packed raw Gram matrix and the two columns
  of row sums of squares — and what the last tile writes into the output block, each as ONE pure term of the input
  blocks and of what the accumulators held before.
-/
import proofs.«181745_j85555748537091_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves in the three carried accumulators and in the output block

At a first time tile (case A) the accumulators are zeroed and the tile's contribution added; at a last time tile
(case B) the tile's contribution is added to what the tile before left, and the output block is computed from the
three updated accumulators. -/

theorem sA0 (c : Dev nD) (i : grid0.Coords) (arg2 : Memref sig .tc .vmem S1x128x8192 .f32) (harg2 : arg2.IsWhole) (arg3 : Memref sig .tc .vmem S1x128x8192 .f32) (harg3 : arg3.IsWhole) (arg4 : Memref sig .tc .vmem S1x1x128 .f32) (harg4 : arg4.IsWhole) (arg5 : Memref sig .tc .vmem S256x256 .f32) (harg5 : arg5.IsWhole) (arg6 : Memref sig .tc .vmem S128x1 .f32) (harg6 : arg6.IsWhole) (arg7 : Memref sig .tc .vmem S128x1 .f32) (harg7 : arg7.IsWhole) (hc0 : cond0_0 i) (hc1 : ¬cond0_1 i)
    (x0 : Vec F S1x128x8192 .f32) (x1 : Vec F S1x128x8192 .f32) :
    sout0_A_0 c i arg2 harg2 arg3 harg3 arg4 harg4 arg5 harg5 arg6 harg6 arg7 harg7 hc0 hc1 x0 x1 = k0_pay15 x0 x1 (k0_pay8 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S256x256) hz2, View.readCov_unit_zero (S := S256x256) _ hz2]
  simp only [View.readAt_eq_ld, harg2.read_unread, harg3.read_unread, View.ld_unit_zero (S := S1x128x8192) hz3]

theorem sA1 (c : Dev nD) (i : grid0.Coords) (arg2 : Memref sig .tc .vmem S1x128x8192 .f32) (harg2 : arg2.IsWhole) (arg3 : Memref sig .tc .vmem S1x128x8192 .f32) (harg3 : arg3.IsWhole) (arg4 : Memref sig .tc .vmem S1x1x128 .f32) (harg4 : arg4.IsWhole) (arg5 : Memref sig .tc .vmem S256x256 .f32) (harg5 : arg5.IsWhole) (arg6 : Memref sig .tc .vmem S128x1 .f32) (harg6 : arg6.IsWhole) (arg7 : Memref sig .tc .vmem S128x1 .f32) (harg7 : arg7.IsWhole) (hc0 : cond0_0 i) (hc1 : ¬cond0_1 i)
    (x0 : Vec F S1x128x8192 .f32) (x1 : Vec F S1x128x8192 .f32) :
    sout0_A_1 c i arg2 harg2 arg3 harg3 arg4 harg4 arg5 harg5 arg6 harg6 arg7 harg7 hc0 hc1 x0 x1 = k0_pay13 x0 (k0_pay9 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S128x1) hz2, View.readCov_unit_zero (S := S128x1) _ hz2]
  simp only [View.readAt_eq_ld, harg2.read_unread, harg3.read_unread, View.ld_unit_zero (S := S1x128x8192) hz3]

theorem sA2 (c : Dev nD) (i : grid0.Coords) (arg2 : Memref sig .tc .vmem S1x128x8192 .f32) (harg2 : arg2.IsWhole) (arg3 : Memref sig .tc .vmem S1x128x8192 .f32) (harg3 : arg3.IsWhole) (arg4 : Memref sig .tc .vmem S1x1x128 .f32) (harg4 : arg4.IsWhole) (arg5 : Memref sig .tc .vmem S256x256 .f32) (harg5 : arg5.IsWhole) (arg6 : Memref sig .tc .vmem S128x1 .f32) (harg6 : arg6.IsWhole) (arg7 : Memref sig .tc .vmem S128x1 .f32) (harg7 : arg7.IsWhole) (hc0 : cond0_0 i) (hc1 : ¬cond0_1 i)
    (x0 : Vec F S1x128x8192 .f32) (x1 : Vec F S1x128x8192 .f32) :
    sout0_A_2 c i arg2 harg2 arg3 harg3 arg4 harg4 arg5 harg5 arg6 harg6 arg7 harg7 hc0 hc1 x0 x1 = k0_pay14 x1 (k0_pay10 (F := F)) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S128x1) hz2, View.readCov_unit_zero (S := S128x1) _ hz2]
  simp only [View.readAt_eq_ld, harg2.read_unread, harg3.read_unread, View.ld_unit_zero (S := S1x128x8192) hz3]

theorem sB0 (c : Dev nD) (i : grid0.Coords) (arg2 : Memref sig .tc .vmem S1x128x8192 .f32) (harg2 : arg2.IsWhole) (arg3 : Memref sig .tc .vmem S1x128x8192 .f32) (harg3 : arg3.IsWhole) (arg4 : Memref sig .tc .vmem S1x1x128 .f32) (harg4 : arg4.IsWhole) (arg5 : Memref sig .tc .vmem S256x256 .f32) (harg5 : arg5.IsWhole) (arg6 : Memref sig .tc .vmem S128x1 .f32) (harg6 : arg6.IsWhole) (arg7 : Memref sig .tc .vmem S128x1 .f32) (harg7 : arg7.IsWhole) (hc0 : ¬cond0_0 i) (hc1 : cond0_1 i)
    (x0 : Vec F S1x128x8192 .f32) (x1 : Vec F S1x128x8192 .f32) (xs0 : Vec F S256x256 .f32) (xs1 : Vec F S128x1 .f32) (xs2 : Vec F S128x1 .f32) :
    sout0_B_0 c i arg2 harg2 arg3 harg3 arg4 harg4 arg5 harg5 arg6 harg6 arg7 harg7 hc0 hc1 x0 x1 xs0 xs1 xs2 = k0_pay15 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread, harg7.read_unread, View.ld_unit_zero (S := S1x128x8192) hz3, View.ld_unit_zero (S := S256x256) hz2, View.ld_unit_zero (S := S128x1) hz2]

theorem sB1 (c : Dev nD) (i : grid0.Coords) (arg2 : Memref sig .tc .vmem S1x128x8192 .f32) (harg2 : arg2.IsWhole) (arg3 : Memref sig .tc .vmem S1x128x8192 .f32) (harg3 : arg3.IsWhole) (arg4 : Memref sig .tc .vmem S1x1x128 .f32) (harg4 : arg4.IsWhole) (arg5 : Memref sig .tc .vmem S256x256 .f32) (harg5 : arg5.IsWhole) (arg6 : Memref sig .tc .vmem S128x1 .f32) (harg6 : arg6.IsWhole) (arg7 : Memref sig .tc .vmem S128x1 .f32) (harg7 : arg7.IsWhole) (hc0 : ¬cond0_0 i) (hc1 : cond0_1 i)
    (x0 : Vec F S1x128x8192 .f32) (x1 : Vec F S1x128x8192 .f32) (xs0 : Vec F S256x256 .f32) (xs1 : Vec F S128x1 .f32) (xs2 : Vec F S128x1 .f32) :
    sout0_B_1 c i arg2 harg2 arg3 harg3 arg4 harg4 arg5 harg5 arg6 harg6 arg7 harg7 hc0 hc1 x0 x1 xs0 xs1 xs2 = k0_pay13 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread, harg7.read_unread, View.ld_unit_zero (S := S1x128x8192) hz3, View.ld_unit_zero (S := S256x256) hz2, View.ld_unit_zero (S := S128x1) hz2]

theorem sB2 (c : Dev nD) (i : grid0.Coords) (arg2 : Memref sig .tc .vmem S1x128x8192 .f32) (harg2 : arg2.IsWhole) (arg3 : Memref sig .tc .vmem S1x128x8192 .f32) (harg3 : arg3.IsWhole) (arg4 : Memref sig .tc .vmem S1x1x128 .f32) (harg4 : arg4.IsWhole) (arg5 : Memref sig .tc .vmem S256x256 .f32) (harg5 : arg5.IsWhole) (arg6 : Memref sig .tc .vmem S128x1 .f32) (harg6 : arg6.IsWhole) (arg7 : Memref sig .tc .vmem S128x1 .f32) (harg7 : arg7.IsWhole) (hc0 : ¬cond0_0 i) (hc1 : cond0_1 i)
    (x0 : Vec F S1x128x8192 .f32) (x1 : Vec F S1x128x8192 .f32) (xs0 : Vec F S256x256 .f32) (xs1 : Vec F S128x1 .f32) (xs2 : Vec F S128x1 .f32) :
    sout0_B_2 c i arg2 harg2 arg3 harg3 arg4 harg4 arg5 harg5 arg6 harg6 arg7 harg7 hc0 hc1 x0 x1 xs0 xs1 xs2 = k0_pay14 x1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread, harg7.read_unread, View.ld_unit_zero (S := S1x128x8192) hz3, View.ld_unit_zero (S := S256x256) hz2, View.ld_unit_zero (S := S128x1) hz2]

theorem oB2 (c : Dev nD) (i : grid0.Coords) (arg2 : Memref sig .tc .vmem S1x128x8192 .f32) (harg2 : arg2.IsWhole) (arg3 : Memref sig .tc .vmem S1x128x8192 .f32) (harg3 : arg3.IsWhole) (arg4 : Memref sig .tc .vmem S1x1x128 .f32) (harg4 : arg4.IsWhole) (arg5 : Memref sig .tc .vmem S256x256 .f32) (harg5 : arg5.IsWhole) (arg6 : Memref sig .tc .vmem S128x1 .f32) (harg6 : arg6.IsWhole) (arg7 : Memref sig .tc .vmem S128x1 .f32) (harg7 : arg7.IsWhole) (hc0 : ¬cond0_0 i) (hc1 : cond0_1 i)
    (x0 : Vec F S1x128x8192 .f32) (x1 : Vec F S1x128x8192 .f32) (xs0 : Vec F S256x256 .f32) (xs1 : Vec F S128x1 .f32) (xs2 : Vec F S128x1 .f32) :
    out0_B_2 c i arg2 harg2 arg3 harg3 arg4 harg4 arg5 harg5 arg6 harg6 arg7 harg7 hc0 hc1 x0 x1 xs0 xs1 xs2
      = k0_pay1 (k0_pay5 (k0_pay13 x0 xs1) (k0_pay15 x0 x1 xs0)) (k0_pay6 (k0_pay13 x0 xs1) (k0_pay14 x1 xs2) (k0_pay15 x0 x1 xs0))
          (k0_pay7 (k0_pay14 x1 xs2) (k0_pay15 x0 x1 xs0)) := by
  unfold out0_B_2
  rw [View.read_writes_eq_canon _ _ _ (cover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz3]
  simp only [View.readCov_unit_zero (S := S128x1) arg6.view hz2, View.readCov_unit_zero (S := S128x1) arg7.view hz2,
    View.readCov_unit_zero (S := S256x256) arg5.view hz2, View.readAt_eq_ld, harg2.read_unread, harg3.read_unread, harg5.read_unread, harg6.read_unread, harg7.read_unread, View.ld_unit_zero (S := S1x128x8192) hz3, View.ld_unit_zero (S := S256x256) hz2, View.ld_unit_zero (S := S128x1) hz2]

end Cert.KernelIdeal.Pieces

end
-- ==== Proof.Block.lean ====
/-
  What the output's staging buffer holds after a LAST time tile, as one pure term of the four input blocks the batch
  has streamed (student and teacher, first and second time tile): the accumulators after the first tile are the zeroed
  ones plus the first tile's contribution, after the second those plus the second tile's, and the output block is the
  final rescale-and-reduce of the three.
-/
import proofs.«181745_j85555748537091_2_alg».proof.Proof.Pieces

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.KernelIdeal.Pieces

variable {F : FTy → Type} [FloatOps F]

/-- The packed raw Gram accumulator after both tiles: zero, plus the first tile's product, plus the second's. -/
def gramAcc (a0 a1 b0 b1 : Vec F S1x128x8192 .f32) : Vec F S256x256 .f32 := k0_pay15 b0 b1 (k0_pay15 a0 a1 (k0_pay8 (F := F)))
/-- A column of row sums of squares after both tiles, for the student's blocks; -/
def ssqS (a0 b0 : Vec F S1x128x8192 .f32) : Vec F S128x1 .f32 := k0_pay13 b0 (k0_pay13 a0 (k0_pay9 (F := F)))
/-- and for the teacher's. -/
def ssqT (a1 b1 : Vec F S1x128x8192 .f32) : Vec F S128x1 .f32 := k0_pay14 b1 (k0_pay14 a1 (k0_pay10 (F := F)))

/-- The output block of a batch from its four input blocks (`a·` the first time tile, `b·` the second; `·0` the
    student, `·1` the teacher). -/
def outBlock (a0 a1 b0 b1 : Vec F S1x128x8192 .f32) : Vec F S1x1x128 .f32 :=
  k0_pay1 (k0_pay5 (ssqS a0 b0) (gramAcc a0 a1 b0 b1)) (k0_pay6 (ssqS a0 b0) (ssqT a1 b1) (gramAcc a0 a1 b0 b1))
    (k0_pay7 (ssqT a1 b1) (gramAcc a0 a1 b0 b1))

variable (m : (ℓ : Loc nD τ sig) → Buf (Elt F) ℓ)

/-- The grid has 32 points, two per batch. -/
theorem N32 : cfg0.N = 32 := N_0

/-- The point before `t`. -/
def prev (t : Fin cfg0.N) : Fin cfg0.N := ⟨t.val - 1, Nat.lt_of_le_of_lt (Nat.sub_le _ _) t.isLt⟩

/-- After an odd point (a batch's last time tile) the output's staging buffer holds the batch's output block, of the
    blocks fetched at the point before and at this one. -/
theorem outsAt_odd (c : Dev nD) (t : Fin cfg0.N) (h1 : t.val % 2 = 1) :
    (outsAt0 m c t.val t.isLt).1
      = outBlock (iblk m c 0 (prev t)) (iblk m c 1 (prev t)) (iblk m c 0 t) (iblk m c 1 t) := by
  have h0 : ¬ t.val % 2 = 0 := by omega
  have hp0 : (prev t).val % 2 = 0 := by show (t.val - 1) % 2 = 0; omega
  have hp1 : ¬ (prev t).val % 2 = 1 := by omega
  have eA := outsAt0_A m c (prev t) hp0 hp1
  have eA' : outsAt0 m c (t.val - 1) (Nat.lt_of_le_of_lt (Nat.sub_le _ _) t.isLt) = _ := eA
  rw [outsAt0_B m c t h0 h1, eA']
  dsimp only
  rw [oB2, sA0, sA1, sA2]
  rfl

end Cert.KernelIdeal.Block

end
-- ==== Proof.Spec.lean ====
/-
  The mathematics of the distillation loss, over the extended reals, with no program in sight.

  A ROW is a function of the 16384 time steps. Its norm is `max (√(0 + ∑ₖ xₖ²)) ε`; two rows' normalised inner
  product is `∑ₖ (xₖ / ‖x‖) · (yₖ / ‖y‖)`; for two [16, 128, 16384] arrays the batch `b`'s squared-Gram total is the sum
  over the 128 × 128 row pairs of the square of that product, its mean over all batches the total divided by
  16 · 128 · 128, and the loss `(mean(t,t) + mean(s,s)) − 2 · mean(s,t)`.

  The same quantities in the arrangement that streams the time axis in two halves of 8192 steps: the sums of squares
  and of products accumulated half by half from zero, the normalisation applied AFTER the contraction as a product with
  the two reciprocal norms.
-/
import Idealize.ShloMosaic.PureOps.Ideal
import Idealize.ShloMosaic.PureOps.Ideal.Laws
import Idealize.ShloMosaic.Lib.ValueIdx

noncomputable section

namespace Cert.Spec

open Idealize.ShloMosaic

/-- The float literals both programs spell: zero, the norm's floor ε (the f32 nearest 1e-12), one, the entry count
    16 · 128 · 128 = 262144, and two. Only zero, ε and one are ever evaluated. -/
abbrev Z : EReal := Ideal.ofBits .f32 0x00000000#32
abbrev EPS : EReal := Ideal.ofBits .f32 0x2B8CBCCC#32
abbrev ONE : EReal := Ideal.ofBits .f32 0x3F800000#32
abbrev CNT : EReal := Ideal.ofBits .f32 0x48800000#32
abbrev TWO : EReal := Ideal.ofBits .f32 0x40000000#32

/-- One row of an array: its 16384 time steps. -/
abbrev Row := Fin 16384 → EReal
/-- A whole [16, 128, 16384] array by coordinates. -/
abbrev Arr := Fin 16 → Fin 128 → Fin 16384 → EReal

/-! ## The reference's arrangement -/

/-- A row's norm, floored at ε. -/
def nrm (x : Row) : EReal := max (Ideal.sqrt (Z + ∑ k : Fin 16384, x k * x k)) EPS

/-- The inner product of two rows, each entry divided by its row's norm first. -/
def gram (x y : Row) : EReal := ∑ k : Fin 16384, Ideal.div (x k) (nrm x) * Ideal.div (y k) (nrm y)

/-- Batch `b`: the sum over all row pairs of the squared normalised inner product. -/
def sq (X Y : Arr) (b : Fin 16) : EReal := ∑ c : Fin 128, ∑ d : Fin 128, gram (X b c) (Y b d) * gram (X b c) (Y b d)

/-- The mean of the squared Gram entries over batches and row pairs. -/
def mean (X Y : Arr) : EReal := Ideal.div (Z + ∑ b : Fin 16, sq X Y b) CNT

/-- The loss of a student array `S` against a teacher array `T`. -/
def loss (S T : Arr) : EReal := (mean T T + mean S S) - TWO * mean S T

/-! ## The streamed arrangement -/

/-- Time step `k` of the first half, and of the second. -/
def lo (k : Fin 8192) : Fin 16384 := ⟨k.val, by have := k.isLt; omega⟩
def hi (k : Fin 8192) : Fin 16384 := ⟨8192 + k.val, by have := k.isLt; omega⟩

/-- A row's sum of squares accumulated half by half from zero. -/
def ssq2 (x : Row) : EReal := (Z + ∑ k : Fin 8192, x (lo k) * x (lo k)) + ∑ k : Fin 8192, x (hi k) * x (hi k)

/-- Two rows' raw inner product accumulated half by half from zero. -/
def dot2 (x y : Row) : EReal := (Z + ∑ k : Fin 8192, x (lo k) * y (lo k)) + ∑ k : Fin 8192, x (hi k) * y (hi k)

/-- The reciprocal of a row's floored norm, from the streamed sum of squares. -/
def rnrm (x : Row) : EReal := Ideal.div ONE (max (Ideal.sqrt (ssq2 x)) EPS)

/-- The raw inner product scaled by the two reciprocal norms. -/
def kgram (x y : Row) : EReal := dot2 x y * rnrm x * rnrm y

/-- Batch `b` in the streamed arrangement. -/
def ksq (X Y : Arr) (b : Fin 16) : EReal := ∑ c : Fin 128, ∑ d : Fin 128, kgram (X b c) (Y b d) * kgram (X b c) (Y b d)

/-- Batch `b`'s three totals in the streamed arrangement: student–student, student–teacher, teacher–teacher. -/
def ktot (S T : Arr) (b : Fin 16) : Fin 3 → EReal := ![ksq S S b, ksq S T b, ksq T T b]

/-- The loss from per-batch totals `P b 0` (student–student), `P b 1` (student–teacher), `P b 2` (teacher–teacher). -/
def lossOf (P : Fin 16 → Fin 3 → EReal) : EReal :=
  (Ideal.div (Z + ∑ b : Fin 16, P b 2) CNT + Ideal.div (Z + ∑ b : Fin 16, P b 0) CNT)
    - TWO * Ideal.div (Z + ∑ b : Fin 16, P b 1) CNT

end Cert.Spec

end
-- ==== Proof.Final.lean ====
/-
  From blocks to the array. The kernel's result array has one [1, 1, 128] block per batch, written back once, after
  the batch's last time tile; so the array after the run is, row by row, the batch's output block of the four input
  blocks the batch streamed. Also: what those input blocks are — block (b, ·, j) of an argument array holds the time
  steps 8192·j … 8192·j + 8191 of every row of batch b.
-/
import proofs.«181745_j85555748537091_2_alg».proof.Proof.Block
import proofs.«181745_j85555748537091_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Block

variable {F : FTy → Type} [FloatOps F]
variable (m : (ℓ : Loc nD τ sig) → Buf (Elt F) ℓ) (ρ : Dev nD → PrngReg)

/-- Batch `b`'s two grid points: its first time tile and its last. -/
def pt0 (b : Fin 16) : Fin cfg0.N := ⟨2 * b.val, by rw [N32]; have := b.isLt; omega⟩
def pt1 (b : Fin 16) : Fin cfg0.N := ⟨2 * b.val + 1, by rw [N32]; have := b.isLt; omega⟩

/-- The printed index maps, decided over the grid: at point `t` the output's block is row `t / 2`; an input's block is
    batch `t / 2`, all rows, time tile `t % 2`. -/
theorem idx_out : ∀ t : Fin cfg0.N, win0_2.index t (0 : Fin 3) = t.val / 2 ∧ win0_2.index t (1 : Fin 3) = 0 ∧ win0_2.index t (2 : Fin 3) = 0 :=
  (by decide +kernel : ∀ t : Fin grid0.N, _)
theorem idx_in0 : ∀ t : Fin cfg0.N, win0_0.index t (0 : Fin 3) = t.val / 2 ∧ win0_0.index t (1 : Fin 3) = 0 ∧ win0_0.index t (2 : Fin 3) = t.val % 2 :=
  (by decide +kernel : ∀ t : Fin grid0.N, _)
theorem idx_in1 : ∀ t : Fin cfg0.N, win0_1.index t (0 : Fin 3) = t.val / 2 ∧ win0_1.index t (1 : Fin 3) = 0 ∧ win0_1.index t (2 : Fin 3) = t.val % 2 :=
  (by decide +kernel : ∀ t : Fin grid0.N, _)

/-- The result array, row by row: batch `b`'s output block of the blocks fetched at its two points. -/
def outArr (c : Dev nD) : Buf (Elt F) ((c : Thread nD τ).loc main_v0) := fun i =>
  outBlock (iblk m c 0 (pt0 ⟨(i 0).val, (i 0).isLt⟩)) (iblk m c 1 (pt0 ⟨(i 0).val, (i 0).isLt⟩))
    (iblk m c 0 (pt1 ⟨(i 0).val, (i 0).isLt⟩)) (iblk m c 1 (pt1 ⟨(i 0).val, (i 0).isLt⟩))
    (ix3 (0 : Fin 1) (0 : Fin 1) (⟨(i 2).val, (i 2).isLt⟩ : Fin 128))

/-- The array at an index of row `t / 2` for an odd point `t`: that point's output block at the lane. -/
theorem outArr_at (c : Dev nD) (i : S16x1x128.Idx) (t : Fin cfg0.N) (h1 : t.val % 2 = 1) (hi : (i 0).val = t.val / 2)
    (y : S1x1x128.Idx) (hy : (i 2).val = (y 2).val) :
    outArr m c i = outBlock (iblk m c 0 (prev t)) (iblk m c 1 (prev t)) (iblk m c 0 t) (iblk m c 1 t) y := by
  have p0 : pt0 ⟨(i 0).val, (i 0).isLt⟩ = prev t := Fin.ext (by show 2 * (i 0).val = t.val - 1; omega)
  have p1 : pt1 ⟨(i 0).val, (i 0).isLt⟩ = t := Fin.ext (by show 2 * (i 0).val + 1 = t.val; omega)
  have py : ix3 (0 : Fin 1) (0 : Fin 1) (⟨(i 2).val, (i 2).isLt⟩ : Fin 128) = y := funext fun a => Fin.ext (by
    match a with
    | ⟨0, _⟩ => have : (y 0).val < 1 := (y 0).isLt; show 0 = (y 0).val; omega
    | ⟨1, _⟩ => have : (y 1).val < 1 := (y 1).isLt; show 0 = (y 1).val; omega
    | ⟨2, _⟩ => exact hy)
  unfold outArr
  rw [p0, p1, py]

/-- WHAT AN ODD POINT WRITES BACK is its block of the row-by-row array. -/
theorem flushed_eq (c : Dev nD) (t : Fin cfg0.N) (hf : (cfg0.win 2).flush t = true) :
    (dats m 0 c).flushed 2 t = ((cfg0.win 2).blk t).view.read (Elt F) (outArr m c) := by
  have h1 : t.val % 2 = 1 := (flush0_2 t).mp hf
  show (cfg0.win 2).cut (grid0.coords t) ((dats m 0 c).after 2 t) = _
  rw [after0_2, outsAt_odd m c t h1]
  obtain ⟨e0, e1, e2⟩ := idx_out t
  funext y
  show outBlock _ _ _ _ y = outArr m c (((cfg0.win 2).blk t).view.emb y)
  have hy0 : (y 0).val < 1 := (y 0).isLt
  refine (outArr_at m c _ t h1 ?_ y ?_).symm
  · show win0_2.index t (0 : Fin 3) * 1 + 1 * (y 0).val = t.val / 2; omega
  · show win0_2.index t (2 : Fin 3) * 128 + 1 * (y 2).val = (y 2).val; omega

/-- Every row of the array is some odd point's block: the array after the run is the row-by-row array. -/
theorem final (c : Dev nD) : (dats m 0 c).arrAt 2 cfg0.N = outArr m c :=
  (dats m 0 c).arrAt_eq_of_cover 2 (outArr m c) (flushed_eq m c) fun i =>
    ⟨pt1 ⟨(i 0).val, (i 0).isLt⟩, (flush0_2 _).mpr (by show (2 * (i 0).val + 1) % 2 = 1; omega), by
      show i ∈ ((View.whole main_v0).slice (win0_2.rect (pt1 ⟨(i 0).val, (i 0).isLt⟩))).set
      rw [View.set_slice_whole, Rect.mem_set_unit]
      obtain ⟨e0, e1, e2⟩ := idx_out (pt1 ⟨(i 0).val, (i 0).isLt⟩)
      have ev : (pt1 ⟨(i 0).val, (i 0).isLt⟩).val = 2 * (i 0).val + 1 := rfl
      have h0 : (i 0 : Nat) < 16 := (i 0).isLt
      have h1 : (i 1 : Nat) < 1 := (i 1).isLt
      have h2 : (i 2 : Nat) < 128 := (i 2).isLt
      intro a
      match a with
      | ⟨0, _⟩ => show win0_2.index (pt1 ⟨(i 0).val, (i 0).isLt⟩) (0 : Fin 3) * 1 ≤ (i 0 : Nat) ∧ (i 0 : Nat) < win0_2.index (pt1 ⟨(i 0).val, (i 0).isLt⟩) (0 : Fin 3) * 1 + 1
                  omega
      | ⟨1, _⟩ => show win0_2.index (pt1 ⟨(i 0).val, (i 0).isLt⟩) (1 : Fin 3) * 1 ≤ (i 1 : Nat) ∧ (i 1 : Nat) < win0_2.index (pt1 ⟨(i 0).val, (i 0).isLt⟩) (1 : Fin 3) * 1 + 1
                  omega
      | ⟨2, _⟩ => show win0_2.index (pt1 ⟨(i 0).val, (i 0).isLt⟩) (2 : Fin 3) * 128 ≤ (i 2 : Nat) ∧ (i 2 : Nat) < win0_2.index (pt1 ⟨(i 0).val, (i 0).isLt⟩) (2 : Fin 3) * 128 + 128
                  omega⟩

/-! ## The input blocks -/

/-- The student's block at a batch's first point holds the first half of the batch's rows; -/
theorem iblk0_pt0 (c : Dev nD) (b : Fin 16) (r : Fin 128) (k : Fin 8192) :
    iblk m c 0 (pt0 b) (ix3 (0 : Fin 1) r k) = m ((c : Thread nD τ).loc main_arg0) (ix3 b r (Cert.Spec.lo k)) := by
  obtain ⟨e0, e1, e2⟩ := idx_in0 (pt0 b)
  have ev : (pt0 b).val = 2 * b.val := rfl
  unfold iblk
  rw [View.read_apply]
  refine congrArg (m ((c : Thread nD τ).loc main_arg0)) (funext fun a => Fin.ext ?_)
  match a with
  | ⟨0, _⟩ => show win0_0.index (pt0 b) (0 : Fin 3) * 1 + 1 * 0 = b.val; omega
  | ⟨1, _⟩ => show win0_0.index (pt0 b) (1 : Fin 3) * 128 + 1 * r.val = r.val; omega
  | ⟨2, _⟩ => show win0_0.index (pt0 b) (2 : Fin 3) * 8192 + 1 * k.val = k.val; omega

/-- at its last point the second half. -/
theorem iblk0_pt1 (c : Dev nD) (b : Fin 16) (r : Fin 128) (k : Fin 8192) :
    iblk m c 0 (pt1 b) (ix3 (0 : Fin 1) r k) = m ((c : Thread nD τ).loc main_arg0) (ix3 b r (Cert.Spec.hi k)) := by
  obtain ⟨e0, e1, e2⟩ := idx_in0 (pt1 b)
  have ev : (pt1 b).val = 2 * b.val + 1 := rfl
  unfold iblk
  rw [View.read_apply]
  refine congrArg (m ((c : Thread nD τ).loc main_arg0)) (funext fun a => Fin.ext ?_)
  match a with
  | ⟨0, _⟩ => show win0_0.index (pt1 b) (0 : Fin 3) * 1 + 1 * 0 = b.val; omega
  | ⟨1, _⟩ => show win0_0.index (pt1 b) (1 : Fin 3) * 128 + 1 * r.val = r.val; omega
  | ⟨2, _⟩ => show win0_0.index (pt1 b) (2 : Fin 3) * 8192 + 1 * k.val = 8192 + k.val; omega

/-- The same for the teacher's blocks. -/
theorem iblk1_pt0 (c : Dev nD) (b : Fin 16) (r : Fin 128) (k : Fin 8192) :
    iblk m c 1 (pt0 b) (ix3 (0 : Fin 1) r k) = m ((c : Thread nD τ).loc main_arg1) (ix3 b r (Cert.Spec.lo k)) := by
  obtain ⟨e0, e1, e2⟩ := idx_in1 (pt0 b)
  have ev : (pt0 b).val = 2 * b.val := rfl
  unfold iblk
  rw [View.read_apply]
  refine congrArg (m ((c : Thread nD τ).loc main_arg1)) (funext fun a => Fin.ext ?_)
  match a with
  | ⟨0, _⟩ => show win0_1.index (pt0 b) (0 : Fin 3) * 1 + 1 * 0 = b.val; omega
  | ⟨1, _⟩ => show win0_1.index (pt0 b) (1 : Fin 3) * 128 + 1 * r.val = r.val; omega
  | ⟨2, _⟩ => show win0_1.index (pt0 b) (2 : Fin 3) * 8192 + 1 * k.val = k.val; omega

theorem iblk1_pt1 (c : Dev nD) (b : Fin 16) (r : Fin 128) (k : Fin 8192) :
    iblk m c 1 (pt1 b) (ix3 (0 : Fin 1) r k) = m ((c : Thread nD τ).loc main_arg1) (ix3 b r (Cert.Spec.hi k)) := by
  obtain ⟨e0, e1, e2⟩ := idx_in1 (pt1 b)
  have ev : (pt1 b).val = 2 * b.val + 1 := rfl
  unfold iblk
  rw [View.read_apply]
  refine congrArg (m ((c : Thread nD τ).loc main_arg1)) (funext fun a => Fin.ext ?_)
  match a with
  | ⟨0, _⟩ => show win0_1.index (pt1 b) (0 : Fin 3) * 1 + 1 * 0 = b.val; omega
  | ⟨1, _⟩ => show win0_1.index (pt1 b) (1 : Fin 3) * 128 + 1 * r.val = r.val; omega
  | ⟨2, _⟩ => show win0_1.index (pt1 b) (2 : Fin 3) * 8192 + 1 * k.val = 8192 + k.val; omega

end Cert.KernelIdeal.Final

end
-- ==== Proof.TailDef.lean ====
/-
  The host operations after the kernel's call, as ONE function of the call's [16, 1, 128] result: the first three lanes
  of every batch's row are sliced out, summed over the batches from zero, and the three totals combined into the loss
  `(tt / n + ss / n) − 2 · (st / n)`.
-/
import proofs.«181745_j85555748537091_2_alg».proof.KernelIdeal

noncomputable section

open Idealize.ShloMosaic

namespace Cert.KernelIdeal.Tail

open Cert.KernelIdeal Cert.KernelIdeal.Facts₀

variable {F : FTy → Type} [FloatOps F] [Cert.KernelIdeal.Facts]

/-- The three per-lane totals over the batches: the slice of lanes 0..2, reshaped to [16, 3], summed over axis 0 from zero. -/
def totals (P : FVec F S16x1x128 .f32) : FVec F S3 .f32 :=
  Host.reduceAdd (shapeCast S16x3 (extractStridedSlice S16x1x3 ![0, 0, 0] P slices_S16x1x128_S16x1x3_0_0_0) shapeCasts_S16x1x3_S16x3)
    (constant (F := F) S_ .f32 0x00000000#32) reducesTo_S16x3_S3_d0 h_S_

/-- Lane `j`'s total as a scalar. -/
def tot0 (s : FVec F S3 .f32) : FVec F S_ .f32 := shapeCast S_ (extractStridedSlice S1 ![0] s slices_S3_S1_0) shapeCasts_S1_S_
def tot1 (s : FVec F S3 .f32) : FVec F S_ .f32 := shapeCast S_ (extractStridedSlice S1 ![1] s slices_S3_S1_1) shapeCasts_S1_S_
def tot2 (s : FVec F S3 .f32) : FVec F S_ .f32 := shapeCast S_ (extractStridedSlice S1 ![2] s slices_S3_S1_2) shapeCasts_S1_S_

/-- The loss from the three totals. -/
def combine (s : FVec F S3 .f32) : FVec F S_ .f32 :=
  subf (addf (Host.divf (tot2 s) (constant (F := F) S_ .f32 0x48800000#32)) (Host.divf (tot0 s) (constant (F := F) S_ .f32 0x48800000#32)))
    (mulf (constant (F := F) S_ .f32 0x40000000#32) (Host.divf (tot1 s) (constant (F := F) S_ .f32 0x48800000#32)))

/-- The whole tail. -/
def tail (P : FVec F S16x1x128 .f32) : FVec F S_ .f32 := combine (totals P)

end Cert.KernelIdeal.Tail

end
-- ==== Proof.KRun.lean ====
/-
  The kernel program's run, read: every weakly fair execution ends with the result at the host tail's function of the
  row-by-row array the call leaves (each row a batch's output block), and with the two argument arrays unchanged.
-/
import proofs.«181745_j85555748537091_2_alg».proof.Proof.Final
import proofs.«181745_j85555748537091_2_alg».proof.Proof.TailDef
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.Block Cert.KernelIdeal.Final

variable {F : FTy → Type} [FloatOps F]
variable (m : (ℓ : Loc nD τ sig) → Buf (Elt F) ℓ) (ρ : Dev nD → PrngReg)

/-- The tail's result after the region: the host operations after the call applied to the array the call leaves. -/
theorem tail_result (c : Dev nD) :
    Pipeline.afterTail₀ cfgs (dats m) 0 (V0 m) [hostOps1] c main_v15 = Tail.tail (outArr m c) := by
  unfold Pipeline.afterTail₀
  show StableHlo.after hostOps1 _ (Proc.devRef .tc main_v15) = _
  after_results
  rw [show Pipeline.withArrays (cfgs 0).spec c (V0 m c) (fun w => (dats m 0 c).arrAt w (cfgs 0).N) (Proc.tc.devRef main_v0) = outArr m c from
    (Pipeline.withArrays_arr spec0 launch0.win.arr_inj c _ _ 2).trans (final m c)]
  rfl

/-- The run: the result at the tail of the row-by-row array, the arguments kept. -/
theorem run : θ_run defs (onTc (τ := τ) (main (F := F))) ⟨m, fun _ => 0, ρ⟩ fun r => ∀ c : Dev nD,
      r.2.mem ((c : Thread nD τ).loc main_v15) = Tail.tail (outArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v15 (Pipeline.mem_restRefs_of main_v15 (by decide) (by decide))).trans (tail_result m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KRun

end
-- ==== Proof.TailRead.lean ====
/-
  The host operations after the kernel's call, read over the extended reals. The call's [16, 1, 128] result holds, in
  lanes 0, 1, 2 of batch b's one row, that batch's three totals. The tail slices those three lanes out, regards them as a
  [16, 3] array, sums each lane over the 16 batches from zero, takes the three sums apart as scalars, and combines them
  as (t₂ / n + t₀ / n) − 2 · (t₁ / n). Read at one index, stage by stage, that is the loss of the per-batch totals.
-/
import proofs.«181745_j85555748537091_2_alg».proof.Proof.TailDef
import proofs.«181745_j85555748537091_2_alg».proof.Proof.Spec
import Idealize.ShloMosaic.Lib.ValueLayout
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.TailRead

open Cert.KernelIdeal Cert.KernelIdeal.Facts₀ Cert.KernelIdeal.Tail

/-- The three sliced lanes as a [16, 3] array: entry (b, j) is lane j of batch b's row. -/
theorem lanes_apply [Cert.KernelIdeal.Facts] (P : FVec Ideal S16x1x128 .f32) (b : Fin 16) (j : Fin 3) :
    shapeCast S16x3 (extractStridedSlice S16x1x3 ![0, 0, 0] P slices_S16x1x128_S16x1x3_0_0_0) shapeCasts_S16x1x3_S16x3 (ix2 b j)
      = P (ix3 b (0 : Fin 1) (⟨j.val, by have := j.isLt; omega⟩ : Fin 128)) := by
  refine (shapeCast_apply _ shapeCasts_S16x1x3_S16x3 (ix2 b j) (ix3 b (0 : Fin 1) j) ?_).trans ?_
  · rw [Shape.rowMajor_val_three, Shape.rowMajor_val_two]
    show (b.val * 1 + 0) * 3 + j.val = b.val * 3 + j.val
    omega
  · exact extractStridedSlice_apply ![0, 0, 0] P slices_S16x1x128_S16x1x3_0_0_0 (ix3 b (0 : Fin 1) j)
      (ix3 b (0 : Fin 1) (⟨j.val, by have := j.isLt; omega⟩ : Fin 128)) (fun a => match a with
        | ⟨0, _⟩ => by show b.val = 0 + b.val; omega
        | ⟨1, _⟩ => by show 0 = 0 + 0; rfl
        | ⟨2, _⟩ => by show j.val = 0 + j.val; omega)

/-- A sum over the batch axis from zero, read at lane j: zero plus the sum over the 16 batches. -/
theorem reduce_apply [Cert.KernelIdeal.Facts] (y : FVec Ideal S16x3 .f32) (j : Fin 3) :
    Host.reduceAdd y (constant (F := Ideal) S_ .f32 0x00000000#32) reducesTo_S16x3_S3_d0 h_S_ (ix1 j)
      = Cert.Spec.Z + ∑ b : Fin 16, y (ix2 b j) := by
  simp only [Host.reduceAdd, Ideal.hostReduceAdd_def]
  rw [Ideal.hostReduceAdd_single reducesTo_S16x3_S3_d0 (by decide)]
  refine congrArg (Cert.Spec.Z + ·) (Finset.sum_congr rfl fun b _ => ?_)
  exact congrArg y (funext fun a => Fin.ext (by match a with | ⟨0, _⟩ => rfl | ⟨1, _⟩ => rfl))

/-- Lane j's total over the batches. -/
theorem totals_apply [Cert.KernelIdeal.Facts] (P : FVec Ideal S16x1x128 .f32) (j : Fin 3) :
    totals (F := Ideal) P (ix1 j) = Cert.Spec.Z + ∑ b : Fin 16, P (ix3 b (0 : Fin 1) (⟨j.val, by have := j.isLt; omega⟩ : Fin 128)) := by
  unfold totals
  rw [reduce_apply]
  refine congrArg (Cert.Spec.Z + ·) (Finset.sum_congr rfl fun b _ => ?_)
  exact lanes_apply P b j

/-! Each total taken apart as a scalar: the one-entry slice at lane j, regarded as rank 0. -/

theorem tot0_apply [Cert.KernelIdeal.Facts] (s : FVec Ideal S3 .f32) (i : S_.Idx) : tot0 (F := Ideal) s i = s (ix1 (0 : Fin 3)) := by
  unfold tot0
  refine (shapeCast_apply _ shapeCasts_S1_S_ i (ix1 (0 : Fin 1)) ?_).trans ?_
  · rw [Shape.rowMajor_val_one]
    exact (Shape.rowMajorPi_zero _ i).symm
  · exact extractStridedSlice_apply ![0] s slices_S3_S1_0 (ix1 (0 : Fin 1)) (ix1 (0 : Fin 3))
      (fun a => match a with | ⟨0, _⟩ => rfl)

theorem tot1_apply [Cert.KernelIdeal.Facts] (s : FVec Ideal S3 .f32) (i : S_.Idx) : tot1 (F := Ideal) s i = s (ix1 (1 : Fin 3)) := by
  unfold tot1
  refine (shapeCast_apply _ shapeCasts_S1_S_ i (ix1 (0 : Fin 1)) ?_).trans ?_
  · rw [Shape.rowMajor_val_one]
    exact (Shape.rowMajorPi_zero _ i).symm
  · exact extractStridedSlice_apply ![1] s slices_S3_S1_1 (ix1 (0 : Fin 1)) (ix1 (1 : Fin 3))
      (fun a => match a with | ⟨0, _⟩ => rfl)

theorem tot2_apply [Cert.KernelIdeal.Facts] (s : FVec Ideal S3 .f32) (i : S_.Idx) : tot2 (F := Ideal) s i = s (ix1 (2 : Fin 3)) := by
  unfold tot2
  refine (shapeCast_apply _ shapeCasts_S1_S_ i (ix1 (0 : Fin 1)) ?_).trans ?_
  · rw [Shape.rowMajor_val_one]
    exact (Shape.rowMajorPi_zero _ i).symm
  · exact extractStridedSlice_apply ![2] s slices_S3_S1_2 (ix1 (0 : Fin 1)) (ix1 (2 : Fin 3))
      (fun a => match a with | ⟨0, _⟩ => rfl)

/-- The three totals combined. -/
theorem combine_apply [Cert.KernelIdeal.Facts] (s : FVec Ideal S3 .f32) (i : S_.Idx) :
    combine (F := Ideal) s i
      = (Ideal.div (s (ix1 (2 : Fin 3))) Cert.Spec.CNT + Ideal.div (s (ix1 (0 : Fin 3))) Cert.Spec.CNT)
          - Cert.Spec.TWO * Ideal.div (s (ix1 (1 : Fin 3))) Cert.Spec.CNT := by
  have e : combine (F := Ideal) s i
      = (Ideal.div (tot2 (F := Ideal) s i) Cert.Spec.CNT + Ideal.div (tot0 (F := Ideal) s i) Cert.Spec.CNT)
          - Cert.Spec.TWO * Ideal.div (tot1 (F := Ideal) s i) Cert.Spec.CNT := rfl
  rw [e, tot0_apply, tot1_apply, tot2_apply]

/-- The tail of the kernel's program is the loss of the per-batch totals the call returns. -/
theorem tail_eq [Cert.KernelIdeal.Facts] (P : FVec Ideal Cert.KernelIdeal.S16x1x128 .f32) (i : Cert.KernelIdeal.S_.Idx) :
    Cert.KernelIdeal.Tail.tail (F := Ideal) P i = Cert.Spec.lossOf (fun (b : Fin 16) (j : Fin 3) => P (ix3 b (0 : Fin 1) (⟨j.val, by have := j.isLt; omega⟩ : Fin 128))) := by
  unfold Cert.KernelIdeal.Tail.tail
  rw [combine_apply, totals_apply, totals_apply, totals_apply]
  rfl

end Cert.KernelIdeal.TailRead

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibFirstAxis.lean ====
/-
  A sum over the FIRST axis of a rank-2 array, read at an index written by coordinates, for any extents: at column `u`
  it is the `Fin`-indexed sum over the rows `k` of the entries `(k, u)`. (The last-axis form — a row sum — has the same
  shape with the roles of the axes exchanged; this is the column sum that follows it when a whole matrix is totalled in
  two steps.)
-/
import Idealize.ShloMosaic.Lib.Pipeline.Value
import Idealize.ShloMosaic.Lib.ValueIdx
import Idealize.ShloMosaic.PureOps.Ideal.Laws

namespace Cert.LibFirstAxis

open Idealize.ShloMosaic Idealize.ShloMosaic.ValueIdx

/-- The reduced index of a sum over the first axis of an `[a, b]` array, with the coordinate put back: `(k, u)`. -/
theorem lift_first2 {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext ax; apply Fin.ext
  fin_cases ax <;> rfl

/-- The sum over the first axis of an `[a, b]` array at the ideal values, at `u`: the sum over `k` of the entries `(k, u)`. -/
theorem sum_first2_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (u : Fin b) :
    multiReduction .add [0] ⟨1, ![b]⟩ src acc h hφ hacc (ix1 u) = ∑ k : Fin a, src (ix2 k u) :=
  (Ideal.multiReduction_add_single src acc h hφ hacc (ix1 u)).trans
    (Finset.sum_congr rfl fun k _ => congrArg src (lift_first2 h u k))

end Cert.LibFirstAxis
-- ==== Proof.PayloadOut.lean ====
/-
  What the kernel's last grid step writes out, read over the extended reals. The packed 256 × 256 matrix holds the raw
  inner products of the 128 student rows (first half) and the 128 teacher rows (second half). Each of its three
  128 × 128 blocks — student–student, student–teacher, teacher–teacher — is scaled entrywise by the reciprocal floored
  norm of its row's array and of its column's array, squared entrywise, and summed over all its entries; the three sums
  land in lanes 0, 1, 2 of the one output row.
-/
import proofs.«181745_j85555748537091_2_alg».proof.Proof.Gen.KernelIdeal.Skeleton
import proofs.«181745_j85555748537091_2_alg».proof.Proof.Spec
import proofs.«181745_j85555748537091_2_alg».proof.Proof.LibColumn
import proofs.«181745_j85555748537091_2_alg».proof.Proof.LibKeepdims
import proofs.«181745_j85555748537091_2_alg».proof.Proof.LibFirstAxis
import Idealize.ShloMosaic.Lib.ValueLayout
import Idealize.ShloMosaic.Lib.Pipeline.Value
import Idealize.ShloMosaic.Lib.ValueIdx
import Idealize.ShloMosaic.PureOps.Ideal.Laws

noncomputable section

open Idealize.ShloMosaic Idealize.ShloMosaic.ValueIdx Cert.KernelIdeal Cert.KernelIdeal.Gen

namespace Cert.KernelIdeal.PayloadOut

/-- Row or column c of the packed matrix's first half … -/
def pL (c : Fin 128) : Fin 256 := ⟨c.val, by have := c.isLt; omega⟩
/-- … and of its second half. -/
def pH (c : Fin 128) : Fin 256 := ⟨128 + c.val, by have := c.isLt; omega⟩

/-- The reciprocal of row c's floored norm, from the column of sums of squares. -/
def rr (v : Vec Ideal S128x1 .f32) (c : Fin 128) : EReal :=
  Ideal.div Cert.Spec.ONE (max (Ideal.sqrt (v (ix2 c (0 : Fin 1)))) Cert.Spec.EPS)

/-! ## The reciprocal norms, as a column and as a row -/

theorem pay2_apply (v : Vec Ideal S128x1 .f32) (c : Fin 128) : k0_pay2 (F := Ideal) v (ix2 c (0 : Fin 1)) = rr v c := rfl
theorem pay3_apply (v : Vec Ideal S128x1 .f32) (c : Fin 128) : k0_pay3 (F := Ideal) v (ix2 c (0 : Fin 1)) = rr v c := rfl

/-- A column of reciprocal norms transposed to a row. -/
theorem row2_apply (v : Vec Ideal S128x1 .f32) (d : Fin 128) :
    transpose S1x128 [1, 0] (k0_pay2 (F := Ideal) v) transposes_S128x1_p1_0_S1x128 (ix2 (0 : Fin 1) d) = rr v d :=
  (transpose_ix2_apply (k0_pay2 (F := Ideal) v) transposes_S128x1_p1_0_S1x128 (0 : Fin 1) d).trans (pay2_apply v d)

theorem pay4_apply (v : Vec Ideal S128x1 .f32) (d : Fin 128) : k0_pay4 (F := Ideal) v (ix2 (0 : Fin 1) d) = rr v d :=
  (transpose_ix2_apply (k0_pay3 (F := Ideal) v) transposes_S128x1_p1_0_S1x128 (0 : Fin 1) d).trans (pay3_apply v d)

/-! ## The three blocks of the packed matrix -/

theorem slice_LL (v48 : Vec Ideal S256x256 .f32) (c d : Fin 128) :
    extractStridedSlice S128x128 ![0, 0] v48 slices_S256x256_o0_0_S128x128 (ix2 c d) = v48 (ix2 (pL c) (pL d)) :=
  extractStridedSlice_apply ![0, 0] v48 slices_S256x256_o0_0_S128x128 (ix2 c d) (ix2 (pL c) (pL d)) (fun a => match a with
    | ⟨0, _⟩ => by show c.val = 0 + c.val; omega
    | ⟨1, _⟩ => by show d.val = 0 + d.val; omega)

theorem slice_LH (v48 : Vec Ideal S256x256 .f32) (c d : Fin 128) :
    extractStridedSlice S128x128 ![0, 128] v48 slices_S256x256_o0_128_S128x128 (ix2 c d) = v48 (ix2 (pL c) (pH d)) :=
  extractStridedSlice_apply ![0, 128] v48 slices_S256x256_o0_128_S128x128 (ix2 c d) (ix2 (pL c) (pH d)) (fun a => match a with
    | ⟨0, _⟩ => by show c.val = 0 + c.val; omega
    | ⟨1, _⟩ => by rfl)

theorem slice_HH (v48 : Vec Ideal S256x256 .f32) (c d : Fin 128) :
    extractStridedSlice S128x128 ![128, 128] v48 slices_S256x256_o128_128_S128x128 (ix2 c d) = v48 (ix2 (pH c) (pH d)) :=
  extractStridedSlice_apply ![128, 128] v48 slices_S256x256_o128_128_S128x128 (ix2 c d) (ix2 (pH c) (pH d)) (fun a => match a with
    | ⟨0, _⟩ => by rfl
    | ⟨1, _⟩ => by rfl)

/-- A block scaled by a column along its rows and by a row along its columns, at (c, d). -/
theorem scaled_apply (M : FVec Ideal S128x128 .f32) (col : FVec Ideal S128x1 .f32) (row : FVec Ideal S1x128 .f32) (c d : Fin 128) :
    mulf (mulf M (broadcastTo S128x128 col broadcasts_S128x1_S128x128)) (broadcastTo S128x128 row broadcasts_S1x128_S128x128) (ix2 c d)
      = M (ix2 c d) * col (ix2 c (0 : Fin 1)) * row (ix2 (0 : Fin 1) d) := by
  rw [mulf_apply, mulf_apply, Cert.LibColumn.broadcastTo_a1_ab_apply, broadcastTo_1b_ab_apply]

/-! ## The sum over all entries, as a row sum followed by a column sum -/

/-- Rows summed, the column of row sums summed: the sum over all entries. -/
theorem total_apply (W : FVec Ideal S128x128 .f32) :
    multiReduction .add [0] S1
        (shapeCast S128x1 (multiReduction .add [1] S128 W 0x00000000#32 reduces_S128x128_S128 (.inl rfl) rfl) shapeCasts_S128_S128x1)
        0x00000000#32 reduces_S128x1_S1 (.inl rfl) rfl (ix1 (0 : Fin 1))
      = ∑ c : Fin 128, ∑ d : Fin 128, W (ix2 c d) := by
  refine (Cert.LibFirstAxis.sum_first2_apply _ _ reduces_S128x1_S1 _ _ (0 : Fin 1)).trans (Finset.sum_congr rfl fun c _ => ?_)
  refine (Cert.LibColumn.shapeCast_a_a1_apply _ shapeCasts_S128_S128x1 c (0 : Fin 1)).trans ?_
  exact Cert.LibKeepdims.sum_last2_apply W _ reduces_S128x128_S128 _ _ c

/-! ## The three block totals -/

/-- The student–student block: scaled, squared, summed. -/
theorem pay5_apply (v34 : Vec Ideal S128x1 .f32) (v48 : Vec Ideal S256x256 .f32) :
    k0_pay5 (F := Ideal) v34 v48 (ix2 (0 : Fin 1) (0 : Fin 1))
      = ∑ c : Fin 128, ∑ d : Fin 128, (v48 (ix2 (pL c) (pL d)) * rr v34 c * rr v34 d) * (v48 (ix2 (pL c) (pL d)) * rr v34 c * rr v34 d) := by
  unfold k0_pay5
  refine (Cert.LibColumn.shapeCast_a_a1_apply _ shapeCasts_S1_S1x1 (0 : Fin 1) (0 : Fin 1)).trans ?_
  refine (total_apply _).trans (Finset.sum_congr rfl fun c _ => Finset.sum_congr rfl fun d _ => ?_)
  rw [mulf_apply, scaled_apply, slice_LL, pay2_apply, row2_apply]

/-- The student–teacher block. -/
theorem pay6_apply (v34 v36 : Vec Ideal S128x1 .f32) (v48 : Vec Ideal S256x256 .f32) :
    k0_pay6 (F := Ideal) v34 v36 v48 (ix2 (0 : Fin 1) (0 : Fin 1))
      = ∑ c : Fin 128, ∑ d : Fin 128, (v48 (ix2 (pL c) (pH d)) * rr v34 c * rr v36 d) * (v48 (ix2 (pL c) (pH d)) * rr v34 c * rr v36 d) := by
  unfold k0_pay6
  refine (Cert.LibColumn.shapeCast_a_a1_apply _ shapeCasts_S1_S1x1 (0 : Fin 1) (0 : Fin 1)).trans ?_
  refine (total_apply _).trans (Finset.sum_congr rfl fun c _ => Finset.sum_congr rfl fun d _ => ?_)
  rw [mulf_apply, scaled_apply, slice_LH, pay2_apply, pay4_apply]

/-- The teacher–teacher block (left as a one-entry vector). -/
theorem pay7_apply (v36 : Vec Ideal S128x1 .f32) (v48 : Vec Ideal S256x256 .f32) :
    k0_pay7 (F := Ideal) v36 v48 (ix1 (0 : Fin 1))
      = ∑ c : Fin 128, ∑ d : Fin 128, (v48 (ix2 (pH c) (pH d)) * rr v36 c * rr v36 d) * (v48 (ix2 (pH c) (pH d)) * rr v36 c * rr v36 d) := by
  unfold k0_pay7
  refine (total_apply _).trans (Finset.sum_congr rfl fun c _ => Finset.sum_congr rfl fun d _ => ?_)
  rw [mulf_apply, scaled_apply, slice_HH, pay3_apply, pay4_apply]

/-! ## The output row: the three totals in lanes 0, 1, 2, zeros after -/

theorem pay1_lane0 (v68 v73 : FVec Ideal S1x1 .f32) (v77 : FVec Ideal S1 .f32) :
    k0_pay1 (F := Ideal) v68 v73 v77 (ix3 (0 : Fin 1) (0 : Fin 1) (0 : Fin 128)) = v68 (ix2 (0 : Fin 1) (0 : Fin 1)) := by
  unfold k0_pay1
  refine (shapeCast_ab_1ab_apply _ shapeCasts_S1x128_S1x1x128 (0 : Fin 1) (0 : Fin 1) (0 : Fin 128)).trans ?_
  exact concatenate_apply_piece (1 : Fin 2) _ _ (ix2 (0 : Fin 1) (0 : Fin 128))
    0 (by show (0 : ℕ) < 4; omega) S1x1 v68 rfl rfl 0 rfl (ix2 (0 : Fin 1) (0 : Fin 1))
    (fun b hb => match b, hb with
      | ⟨0, _⟩, _ => rfl
      | ⟨1, _⟩, hb => absurd rfl hb)
    rfl

theorem pay1_lane1 (v68 v73 : FVec Ideal S1x1 .f32) (v77 : FVec Ideal S1 .f32) :
    k0_pay1 (F := Ideal) v68 v73 v77 (ix3 (0 : Fin 1) (0 : Fin 1) (1 : Fin 128)) = v73 (ix2 (0 : Fin 1) (0 : Fin 1)) := by
  unfold k0_pay1
  refine (shapeCast_ab_1ab_apply _ shapeCasts_S1x128_S1x1x128 (0 : Fin 1) (0 : Fin 1) (1 : Fin 128)).trans ?_
  exact concatenate_apply_piece (1 : Fin 2) _ _ (ix2 (0 : Fin 1) (1 : Fin 128))
    1 (by show (1 : ℕ) < 4; omega) S1x1 v73 rfl rfl 1 rfl (ix2 (0 : Fin 1) (0 : Fin 1))
    (fun b hb => match b, hb with
      | ⟨0, _⟩, _ => rfl
      | ⟨1, _⟩, hb => absurd rfl hb)
    rfl

theorem pay1_lane2 (v68 v73 : FVec Ideal S1x1 .f32) (v77 : FVec Ideal S1 .f32) :
    k0_pay1 (F := Ideal) v68 v73 v77 (ix3 (0 : Fin 1) (0 : Fin 1) (2 : Fin 128)) = v77 (ix1 (0 : Fin 1)) := by
  unfold k0_pay1
  refine (shapeCast_ab_1ab_apply _ shapeCasts_S1x128_S1x1x128 (0 : Fin 1) (0 : Fin 1) (2 : Fin 128)).trans ?_
  refine (concatenate_apply_piece (1 : Fin 2) _ _ (ix2 (0 : Fin 1) (2 : Fin 128))
    2 (by show (2 : ℕ) < 4; omega) S1x1 _ rfl rfl 2 rfl (ix2 (0 : Fin 1) (0 : Fin 1))
    (fun b hb => match b, hb with
      | ⟨0, _⟩, _ => rfl
      | ⟨1, _⟩, hb => absurd rfl hb)
    rfl).trans ?_
  exact Cert.LibColumn.shapeCast_a_a1_apply v77 shapeCasts_S1_S1x1 (0 : Fin 1) (0 : Fin 1)

/-! ## What the last step writes -/

theorem out_lane0 (v34 v36 : Vec Ideal S128x1 .f32) (v48 : Vec Ideal S256x256 .f32) :
    k0_pay1 (F := Ideal) (k0_pay5 v34 v48) (k0_pay6 v34 v36 v48) (k0_pay7 v36 v48) (ix3 (0 : Fin 1) (0 : Fin 1) (0 : Fin 128))
      = ∑ c : Fin 128, ∑ d : Fin 128, (v48 (ix2 (pL c) (pL d)) * rr v34 c * rr v34 d) * (v48 (ix2 (pL c) (pL d)) * rr v34 c * rr v34 d) :=
  (pay1_lane0 _ _ _).trans (pay5_apply v34 v48)

theorem out_lane1 (v34 v36 : Vec Ideal S128x1 .f32) (v48 : Vec Ideal S256x256 .f32) :
    k0_pay1 (F := Ideal) (k0_pay5 v34 v48) (k0_pay6 v34 v36 v48) (k0_pay7 v36 v48) (ix3 (0 : Fin 1) (0 : Fin 1) (1 : Fin 128))
      = ∑ c : Fin 128, ∑ d : Fin 128, (v48 (ix2 (pL c) (pH d)) * rr v34 c * rr v36 d) * (v48 (ix2 (pL c) (pH d)) * rr v34 c * rr v36 d) :=
  (pay1_lane1 _ _ _).trans (pay6_apply v34 v36 v48)

theorem out_lane2 (v34 v36 : Vec Ideal S128x1 .f32) (v48 : Vec Ideal S256x256 .f32) :
    k0_pay1 (F := Ideal) (k0_pay5 v34 v48) (k0_pay6 v34 v36 v48) (k0_pay7 v36 v48) (ix3 (0 : Fin 1) (0 : Fin 1) (2 : Fin 128))
      = ∑ c : Fin 128, ∑ d : Fin 128, (v48 (ix2 (pH c) (pH d)) * rr v36 c * rr v36 d) * (v48 (ix2 (pH c) (pH d)) * rr v36 c * rr v36 d) :=
  (pay1_lane2 _ _ _).trans (pay7_apply v36 v48)

end Cert.KernelIdeal.PayloadOut

end
-- ==== Proof.PayloadRead.lean ====
/-
  The kernel's output block read at its first three lanes, at the ideal values, as the mathematics of the streamed
  arrangement.

  A batch streams two time tiles of 8192 steps; each tile stacks the student's 128 rows over the teacher's into a
  256-row matrix. Across the two tiles the kernel accumulates, from zero, (a) the column of each row's sum of squares,
  which is the streamed sum of squares of the full row, and (b) the 256 × 256 matrix of inner products of stacked rows,
  whose entries in the upper-left, upper-right and lower-right 128 × 128 blocks are the streamed raw inner products of
  student with student, student with teacher and teacher with teacher rows. The tail divides one by each floored root of
  (a), scales each block of (b) by the row's and the column's reciprocal norm, squares, and totals first along the rows
  and then down the column of row totals; the three totals are laid side by side in lanes 0, 1, 2 of the output row.
  Lane by lane that is the sum over all row pairs of the squared streamed normalised inner product.
-/
import proofs.«181745_j85555748537091_2_alg».proof.Proof.Block
import proofs.«181745_j85555748537091_2_alg».proof.Proof.Spec
import proofs.«181745_j85555748537091_2_alg».proof.Proof.LibColumn
import proofs.«181745_j85555748537091_2_alg».proof.Proof.LibKeepdims
import proofs.«181745_j85555748537091_2_alg».proof.Proof.PayloadOut
import Idealize.ShloMosaic.Lib.ValueLayout
import Idealize.ShloMosaic.Lib.Pipeline.Value
import Idealize.ShloMosaic.PureOps.Ideal.Laws

noncomputable section

namespace Cert.KernelIdeal.PayloadRead

open Idealize.ShloMosaic Idealize.ShloMosaic.ValueIdx Cert.KernelIdeal Cert.KernelIdeal.Gen Cert.KernelIdeal.Block Cert.KernelIdeal.PayloadOut Cert.Spec

/-! ## The input block as a matrix, and the columns of row sums of squares -/

theorem pay11_apply (v : Vec Ideal S1x128x8192 .f32) (c : Fin 128) (k : Fin 8192) :
    k0_pay11 v (ix2 c k) = v (ix3 (0 : Fin 1) c k) := by
  unfold k0_pay11
  exact shapeCast_1ab_ab_apply v _ c k

theorem pay12_apply (v : Vec Ideal S1x128x8192 .f32) (c : Fin 128) (k : Fin 8192) :
    k0_pay12 v (ix2 c k) = v (ix3 (0 : Fin 1) c k) := by
  unfold k0_pay12
  exact shapeCast_1ab_ab_apply v _ c k

theorem pay9_apply (c : Fin 128) : k0_pay9 (F := Ideal) (ix2 c (0 : Fin 1)) = Z := by
  unfold k0_pay9
  rw [shapeCast_self]
  rfl

theorem pay10_apply (c : Fin 128) : k0_pay10 (F := Ideal) (ix2 c (0 : Fin 1)) = Z := by
  unfold k0_pay10
  rw [shapeCast_self]
  rfl

theorem pay13_apply (v : Vec Ideal S1x128x8192 .f32) (w : Vec Ideal S128x1 .f32) (c : Fin 128) :
    k0_pay13 v w (ix2 c (0 : Fin 1))
      = w (ix2 c (0 : Fin 1)) + ∑ k : Fin 8192, v (ix3 (0 : Fin 1) c k) * v (ix3 (0 : Fin 1) c k) := by
  unfold k0_pay13
  rw [shapeCast_self, addf_apply, LibColumn.shapeCast_a_a1_apply]
  refine congrArg (w (ix2 c (0 : Fin 1)) + ·) ?_
  refine (LibKeepdims.sum_last2_apply _ _ _ _ _ c).trans ?_
  exact Finset.sum_congr rfl fun k _ => by rw [mulf_apply, pay11_apply]

theorem pay14_apply (v : Vec Ideal S1x128x8192 .f32) (w : Vec Ideal S128x1 .f32) (c : Fin 128) :
    k0_pay14 v w (ix2 c (0 : Fin 1))
      = w (ix2 c (0 : Fin 1)) + ∑ k : Fin 8192, v (ix3 (0 : Fin 1) c k) * v (ix3 (0 : Fin 1) c k) := by
  unfold k0_pay14
  rw [shapeCast_self, addf_apply, LibColumn.shapeCast_a_a1_apply]
  refine congrArg (w (ix2 c (0 : Fin 1)) + ·) ?_
  refine (LibKeepdims.sum_last2_apply _ _ _ _ _ c).trans ?_
  exact Finset.sum_congr rfl fun k _ => by rw [mulf_apply, pay12_apply]

section Blocks
variable (a0 a1 b0 b1 : Vec Ideal S1x128x8192 .f32) (X Y : Fin 128 → Cert.Spec.Row)

theorem ssqS_apply (ha0 : ∀ (c : Fin 128) (k : Fin 8192), a0 (ix3 (0 : Fin 1) c k) = X c (lo k))
    (hb0 : ∀ (c : Fin 128) (k : Fin 8192), b0 (ix3 (0 : Fin 1) c k) = X c (hi k)) (c : Fin 128) :
    ssqS a0 b0 (ix2 c (0 : Fin 1)) = ssq2 (X c) := by
  unfold ssqS ssq2
  rw [pay13_apply, pay13_apply, pay9_apply]
  simp only [ha0, hb0]

theorem ssqT_apply (ha1 : ∀ (c : Fin 128) (k : Fin 8192), a1 (ix3 (0 : Fin 1) c k) = Y c (lo k))
    (hb1 : ∀ (c : Fin 128) (k : Fin 8192), b1 (ix3 (0 : Fin 1) c k) = Y c (hi k)) (c : Fin 128) :
    ssqT a1 b1 (ix2 c (0 : Fin 1)) = ssq2 (Y c) := by
  unfold ssqT ssq2
  rw [pay14_apply, pay14_apply, pay10_apply]
  simp only [ha1, hb1]

end Blocks

/-! ## The packed raw Gram accumulator -/

/-- The accumulator's contraction: rows against rows, over the time axis of a tile. -/
abbrev DD : DotDims S256x8192 S256x8192 S256x256 := dot_S256x8192_S256x8192_S256x256_1_1_0_0_n_n

/-- The two blocks of a time tile stacked: the student's 128 rows over the teacher's. -/
def cat (v3 v5 : Vec Ideal S1x128x8192 .f32) : FVec Ideal S256x8192 .f32 :=
  concatenate S256x8192 0 [⟨S128x8192, k0_pay11 v3⟩, ⟨S128x8192, k0_pay12 v5⟩] concatenates_S128x8192_S128x8192_S256x8192_d0

theorem cat_pL (v3 v5 : Vec Ideal S1x128x8192 .f32) (c : Fin 128) (k : Fin 8192) :
    cat v3 v5 (ix2 (pL c) k) = v3 (ix3 (0 : Fin 1) c k) := by
  unfold cat
  refine (concatenate_pair_apply_left (t := S256x8192) (s₁ := S128x8192) (s₂ := S128x8192) _ _ _ _ (ix2 (pL c) k) rfl (ix2 c k) ?_).trans (pay11_apply v3 c k)
  intro b
  match b with
  | ⟨0, _⟩ => rfl
  | ⟨1, _⟩ => rfl

theorem cat_pH (v3 v5 : Vec Ideal S1x128x8192 .f32) (c : Fin 128) (k : Fin 8192) :
    cat v3 v5 (ix2 (pH c) k) = v5 (ix3 (0 : Fin 1) c k) := by
  unfold cat
  refine (concatenate_pair_apply_right (t := S256x8192) (s₁ := S128x8192) (s₂ := S128x8192) _ _ _ _ (ix2 (pH c) k) rfl rfl (ix2 c k) ?_ ?_).trans (pay12_apply v5 c k)
  · intro b hb
    match b, hb with
    | ⟨0, _⟩, hb => exact absurd rfl hb
    | ⟨1, _⟩, _ => rfl
  · show c.val + 128 = 128 + c.val
    exact Nat.add_comm _ _

theorem lhs0 (j : S256x256.Idx) (q : DD.contr.Idx) : (DD.lhsIdx j q 0).val = (j 0).val := by
  unfold DotDims.lhsIdx
  rw [dif_neg (show ¬(0 : Fin S256x8192.rank) ∈ DD.lhsBatch by decide),
    dif_pos (show (0 : Fin S256x8192.rank) ∈ DD.lhsNonContracting by decide)]
  rfl

theorem rhs0 (j : S256x256.Idx) (q : DD.contr.Idx) : (DD.rhsIdx j q 0).val = (j 1).val := by
  unfold DotDims.rhsIdx
  rw [dif_neg (show ¬(0 : Fin S256x8192.rank) ∈ DD.rhsBatch by decide),
    dif_pos (show (0 : Fin S256x8192.rank) ∈ DD.rhsNonContracting by decide)]
  rfl

theorem lhs1 (j : S256x256.Idx) (q : DD.contr.Idx) : (DD.lhsIdx j q 1).val = (q ⟨0, by decide⟩).val :=
  DD.lhsIdx_val_of_single rfl j q

theorem rhs1 (j : S256x256.Idx) (q : DD.contr.Idx) : (DD.rhsIdx j q 1).val = (q ⟨0, by decide⟩).val :=
  DD.rhsIdx_val_of_single rfl j q

/-- One tile's update of the accumulator at `(p, q)`: what it held plus the inner product of rows `p` and `q` of the
    stacked blocks. -/
theorem pay15_apply (v3 v5 : Vec Ideal S1x128x8192 .f32) (w : Vec Ideal S256x256 .f32) (p q : Fin 256) :
    k0_pay15 v3 v5 w (ix2 p q) = w (ix2 p q) + ∑ k : Fin 8192, cat v3 v5 (ix2 p k) * cat v3 v5 (ix2 q k) := by
  unfold k0_pay15
  rw [shapeCast_self, addf_apply]
  refine congrArg (w (ix2 p q) + ·) ?_
  show FloatOps.matmul DD none (truncf .bf16 (cat v3 v5) bitsLt_bf16_f32) (truncf .bf16 (cat v3 v5) bitsLt_bf16_f32)
      (constant S256x256 .f32 0x00000000#32) (ix2 p q) = _
  rw [Ideal.matmul_constant_zero_apply, ← Equiv.sum_comp (ValueIdx.contrEquiv1 DD 8192 rfl rfl).symm]
  refine Finset.sum_congr rfl fun k _ => ?_
  have hk := ValueIdx.contrEquiv1_symm_val DD 8192 rfl rfl k
  have el : DD.lhsIdx (ix2 p q) ((ValueIdx.contrEquiv1 DD 8192 rfl rfl).symm k) = ix2 p k := funext fun a => Fin.ext (by
    match a with
    | ⟨0, _⟩ => exact lhs0 _ _
    | ⟨1, _⟩ => exact (lhs1 _ _).trans hk)
  have er : DD.rhsIdx (ix2 p q) ((ValueIdx.contrEquiv1 DD 8192 rfl rfl).symm k) = ix2 q k := funext fun a => Fin.ext (by
    match a with
    | ⟨0, _⟩ => exact rhs0 _ _
    | ⟨1, _⟩ => exact (rhs1 _ _).trans hk)
  rw [el, er, truncf_apply, truncf_apply]

theorem pay8_apply (p q : Fin 256) : k0_pay8 (F := Ideal) (ix2 p q) = Z := by
  unfold k0_pay8
  rw [shapeCast_self]
  rfl

theorem gramAcc_apply (a0 a1 b0 b1 : Vec Ideal S1x128x8192 .f32) (p q : Fin 256) :
    gramAcc a0 a1 b0 b1 (ix2 p q)
      = (Z + ∑ k : Fin 8192, cat a0 a1 (ix2 p k) * cat a0 a1 (ix2 q k)) + ∑ k : Fin 8192, cat b0 b1 (ix2 p k) * cat b0 b1 (ix2 q k) := by
  unfold gramAcc
  rw [pay15_apply, pay15_apply, pay8_apply]

section Corners
variable (a0 a1 b0 b1 : Vec Ideal S1x128x8192 .f32) (X Y : Fin 128 → Cert.Spec.Row)
variable (ha0 : ∀ (c : Fin 128) (k : Fin 8192), a0 (ix3 (0 : Fin 1) c k) = X c (lo k))
  (hb0 : ∀ (c : Fin 128) (k : Fin 8192), b0 (ix3 (0 : Fin 1) c k) = X c (hi k))
  (ha1 : ∀ (c : Fin 128) (k : Fin 8192), a1 (ix3 (0 : Fin 1) c k) = Y c (lo k))
  (hb1 : ∀ (c : Fin 128) (k : Fin 8192), b1 (ix3 (0 : Fin 1) c k) = Y c (hi k))
include ha0 hb0 in
theorem gramAcc_ss (c d : Fin 128) : gramAcc a0 a1 b0 b1 (ix2 (pL c) (pL d)) = dot2 (X c) (X d) := by
  rw [gramAcc_apply]
  unfold dot2
  simp only [cat_pL, ha0, hb0]

include ha0 hb0 ha1 hb1 in
theorem gramAcc_st (c d : Fin 128) : gramAcc a0 a1 b0 b1 (ix2 (pL c) (pH d)) = dot2 (X c) (Y d) := by
  rw [gramAcc_apply]
  unfold dot2
  simp only [cat_pL, cat_pH, ha0, hb0, ha1, hb1]

include ha1 hb1 in
theorem gramAcc_tt (c d : Fin 128) : gramAcc a0 a1 b0 b1 (ix2 (pH c) (pH d)) = dot2 (Y c) (Y d) := by
  rw [gramAcc_apply]
  unfold dot2
  simp only [cat_pH, ha1, hb1]

end Corners

/-! ## The output block -/

/-- The sum over all row pairs of the squared streamed normalised inner product of a row of `X` with a row of `Y`. -/
def rowTot (X Y : Fin 128 → Cert.Spec.Row) : EReal := ∑ c : Fin 128, ∑ d : Fin 128, kgram (X c) (Y d) * kgram (X c) (Y d)

section Out
variable (a0 a1 b0 b1 : Vec Ideal S1x128x8192 .f32) (X Y : Fin 128 → Cert.Spec.Row)
variable (ha0 : ∀ (c : Fin 128) (k : Fin 8192), a0 (ix3 (0 : Fin 1) c k) = X c (lo k))
  (hb0 : ∀ (c : Fin 128) (k : Fin 8192), b0 (ix3 (0 : Fin 1) c k) = X c (hi k))
  (ha1 : ∀ (c : Fin 128) (k : Fin 8192), a1 (ix3 (0 : Fin 1) c k) = Y c (lo k))
  (hb1 : ∀ (c : Fin 128) (k : Fin 8192), b1 (ix3 (0 : Fin 1) c k) = Y c (hi k))

include ha0 hb0 in
/-- The reciprocal floored norm the kernel forms from the student's column is the streamed one of the row. -/
theorem rr_ssqS (c : Fin 128) : rr (ssqS a0 b0) c = rnrm (X c) := by
  unfold rr rnrm
  rw [ssqS_apply a0 b0 X ha0 hb0 c]

include ha1 hb1 in
theorem rr_ssqT (c : Fin 128) : rr (ssqT a1 b1) c = rnrm (Y c) := by
  unfold rr rnrm
  rw [ssqT_apply a1 b1 Y ha1 hb1 c]

include ha0 hb0 ha1 hb1 in
theorem outBlock_ss : outBlock a0 a1 b0 b1 (ix3 (0 : Fin 1) (0 : Fin 1) (0 : Fin 128)) = rowTot X X := by
  unfold outBlock
  rw [out_lane0]
  unfold rowTot kgram
  refine Finset.sum_congr rfl fun c _ => Finset.sum_congr rfl fun d _ => ?_
  rw [gramAcc_ss a0 a1 b0 b1 X ha0 hb0 c d, rr_ssqS a0 b0 X ha0 hb0 c, rr_ssqS a0 b0 X ha0 hb0 d]

include ha0 hb0 ha1 hb1 in
theorem outBlock_st : outBlock a0 a1 b0 b1 (ix3 (0 : Fin 1) (0 : Fin 1) (1 : Fin 128)) = rowTot X Y := by
  unfold outBlock
  rw [out_lane1]
  unfold rowTot kgram
  refine Finset.sum_congr rfl fun c _ => Finset.sum_congr rfl fun d _ => ?_
  rw [gramAcc_st a0 a1 b0 b1 X Y ha0 hb0 ha1 hb1 c d, rr_ssqS a0 b0 X ha0 hb0 c, rr_ssqT a1 b1 Y ha1 hb1 d]

include ha0 hb0 ha1 hb1 in
theorem outBlock_tt : outBlock a0 a1 b0 b1 (ix3 (0 : Fin 1) (0 : Fin 1) (2 : Fin 128)) = rowTot Y Y := by
  unfold outBlock
  rw [out_lane2]
  unfold rowTot kgram
  refine Finset.sum_congr rfl fun c _ => Finset.sum_congr rfl fun d _ => ?_
  rw [gramAcc_tt a0 a1 b0 b1 Y ha1 hb1 c d, rr_ssqT a1 b1 Y ha1 hb1 c, rr_ssqT a1 b1 Y ha1 hb1 d]

end Out

end Cert.KernelIdeal.PayloadRead

end
-- ==== Proof.SpecLaw.lean ====
/-
  The streamed arrangement of the distillation loss computes the reference's loss, on arrays of finite entries.

  Splitting the 16384 time steps into the first and the second 8192 leaves every sum over the time axis unchanged, so a
  sum of squares or of products accumulated half by half from zero is the whole sum from zero, and the streamed norm of a
  row is the reference's norm. On a row of reals every quantity is the coercion of a real: the sum of squares is a
  nonnegative real, its square root a real, and the norm floored at ε > 0 a real P ≥ ε, hence nonzero; division by it is
  multiplication by 1/P. The law is then the distributivity of the reals,

      (∑ₖ aₖ bₖ) · (1 · 1/P) · (1 · 1/Q) = ∑ₖ (aₖ · 1/P) · (bₖ · 1/Q),

  carried through the row pairs and the batches; the entry count and the factor two are never evaluated.
-/
import proofs.«181745_j85555748537091_2_alg».proof.Proof.Spec

noncomputable section

namespace Cert.Spec

open Idealize.ShloMosaic

/-! ## The literals that are evaluated -/

theorem Z_eq : Z = 0 := Ideal.ofBits_zero_f32

theorem one_eq : ONE = 1 := by
  simp [Ideal.ofBits, Ideal.ieee]
  rw [← EReal.coe_mul, ← EReal.coe_one, EReal.coe_eq_coe_iff]
  norm_num

theorem eps_pos : ∃ e : ℝ, 0 < e ∧ EPS = (e : EReal) := by
  refine ⟨9223372 * (2 ^ 63)⁻¹, by positivity, ?_⟩
  simp [Ideal.ofBits, Ideal.ieee]

/-! ## The time axis in two halves -/

theorem sum_halves {M : Type*} [AddCommMonoid M] (f : Fin 16384 → M) :
    ∑ k : Fin 16384, f k = ∑ k : Fin 8192, f (lo k) + ∑ k : Fin 8192, f (hi k) :=
  Fin.sum_univ_add (a := 8192) (b := 8192) f

theorem ssq2_eq (x : Row) : ssq2 x = Z + ∑ k : Fin 16384, x k * x k := by
  rw [ssq2, sum_halves (fun k => x k * x k), add_assoc]

theorem dot2_eq (x y : Row) : dot2 x y = Z + ∑ k : Fin 16384, x k * y k := by
  rw [dot2, sum_halves (fun k => x k * y k), add_assoc]

theorem rnrm_eq (x : Row) : rnrm x = Ideal.div ONE (nrm x) := by
  rw [rnrm, nrm, ssq2_eq]

/-! ## Finite rows: every quantity is the coercion of a real -/

theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

theorem coe_max (p q : ℝ) : ((max p q : ℝ) : EReal) = max (p : EReal) (q : EReal) :=
  EReal.coe_strictMono.monotone.map_max

theorem nrm_coe (a : Fin 16384 → ℝ) {e : ℝ} (hE : EPS = (e : EReal)) :
    nrm (fun k => (a k : EReal))
      = ((max (Real.sqrt (∑ k : Fin 16384, a k * a k)) e : ℝ) : EReal) := by
  have h0 : ¬ (∑ k : Fin 16384, a k * a k) < 0 :=
    not_lt.mpr (Finset.sum_nonneg (fun k _ => mul_self_nonneg (a k)))
  rw [nrm, Z_eq, zero_add, hE]
  simp only [← EReal.coe_mul]
  rw [← coe_sum, Ideal.sqrt_coe, if_neg h0, coe_max]

theorem scaled_sum (a b : Fin 16384 → ℝ) {P Q : ℝ} (hP : P ≠ 0) (hQ : Q ≠ 0) :
    (∑ k : Fin 16384, (a k : EReal) * (b k : EReal)) * Ideal.div 1 (P : EReal) * Ideal.div 1 (Q : EReal)
      = ∑ k : Fin 16384, Ideal.div (a k : EReal) (P : EReal) * Ideal.div (b k : EReal) (Q : EReal) := by
  simp only [Ideal.div_coe hP, Ideal.div_coe hQ, one_mul, ← EReal.coe_mul, ← coe_sum]
  rw [EReal.coe_eq_coe_iff, Finset.sum_mul, Finset.sum_mul]
  exact Finset.sum_congr rfl (fun k _ => by ring)

theorem kgram_coe (a b : Fin 16384 → ℝ) :
    kgram (fun k => (a k : EReal)) (fun k => (b k : EReal))
      = gram (fun k => (a k : EReal)) (fun k => (b k : EReal)) := by
  obtain ⟨e, he, hE⟩ := eps_pos
  have hP : max (Real.sqrt (∑ k : Fin 16384, a k * a k)) e ≠ 0 :=
    (lt_of_lt_of_le he (le_max_right _ _)).ne'
  have hQ : max (Real.sqrt (∑ k : Fin 16384, b k * b k)) e ≠ 0 :=
    (lt_of_lt_of_le he (le_max_right _ _)).ne'
  rw [kgram, gram, rnrm_eq, rnrm_eq, dot2_eq, nrm_coe a hE, nrm_coe b hE, Z_eq, zero_add, one_eq]
  exact scaled_sum a b hP hQ

theorem kgram_eq (x y : Row) (hx : ∀ k, ∃ r : ℝ, x k = (r : EReal)) (hy : ∀ k, ∃ r : ℝ, y k = (r : EReal)) :
    kgram x y = gram x y := by
  choose a ha using hx
  choose b hb using hy
  obtain rfl : x = fun k => (a k : EReal) := funext ha
  obtain rfl : y = fun k => (b k : EReal) := funext hb
  exact kgram_coe a b

theorem ksq_eq (X Y : Arr) (hX : ∀ b c k, ∃ r : ℝ, X b c k = (r : EReal))
    (hY : ∀ b c k, ∃ r : ℝ, Y b c k = (r : EReal)) (b : Fin 16) : ksq X Y b = sq X Y b := by
  unfold ksq sq
  refine Finset.sum_congr rfl (fun c _ => Finset.sum_congr rfl (fun d _ => ?_))
  rw [kgram_eq _ _ (hX b c) (hY b d)]

theorem lossOf_ktot (S T : Arr) (hS : ∀ b c k, ∃ r : ℝ, S b c k = (r : EReal))
    (hT : ∀ b c k, ∃ r : ℝ, T b c k = (r : EReal)) : lossOf (ktot S T) = loss S T := by
  have h0 : ∀ b, ktot S T b 0 = sq S S b := fun b => (ksq_eq S S hS hS b ▸ rfl)
  have h1 : ∀ b, ktot S T b 1 = sq S T b := fun b => (ksq_eq S T hS hT b ▸ rfl)
  have h2 : ∀ b, ktot S T b 2 = sq T T b := fun b => (ksq_eq T T hT hT b ▸ rfl)
  simp only [lossOf, loss, mean, h0, h1, h2]

end Cert.Spec

end
-- ==== Proof.RefLoss.lean ====
/-
  The reference program computes the distillation loss in the plain arrangement: each row of each array is
  divided by its floored norm max (√(0 + ∑ₖ xₖ²)) ε, the three Gram arrays (teacher–teacher, student–student,
  student–teacher) are the inner products of normalised rows over the 16384 time steps, each Gram array is
  squared entrywise and summed over all 16 · 128 · 128 entries from zero, divided by the entry count, and the
  result is (mean(t,t) + mean(s,s)) − 2 · mean(s,t). This module reads the reference's stages one at a time, at
  explicit coordinates, and identifies its result with that formula.
-/
import proofs.«181745_j85555748537091_2_alg».proof.Proof.Spec
import proofs.«181745_j85555748537091_2_alg».proof.Proof.Gen.ReferenceIdeal.Read

noncomputable section

open Idealize.ShloMosaic Idealize.ShloMosaic.ValueIdx

namespace Cert.RefLoss

open Cert.ReferenceIdeal Cert.ReferenceIdeal.Read

/-- An array by coordinates. -/
def arr (x : (⟨Cert.ReferenceIdeal.S16x128x16384, .f32⟩ : BufTy).Contents (Elt Ideal)) : Cert.Spec.Arr :=
  fun b c k => x (Idealize.ShloMosaic.ValueIdx.ix3 b c k)

/-- The index set of a [16, 128, 128] array is the product of its three coordinate ranges … -/
def idxEquiv3 : Cert.ReferenceIdeal.S16x128x128.Idx ≃ Fin 16 × Fin 128 × Fin 128 where
  toFun i := (i 0, i 1, i 2)
  invFun p := ix3 p.1 p.2.1 p.2.2
  left_inv i := (eq_ix3 i).symm
  right_inv _ := rfl

/-- … so a sum over it is the triple sum over the coordinates. -/
theorem sum_idx3 (f : Cert.ReferenceIdeal.S16x128x128.Idx → EReal) :
    ∑ j : Cert.ReferenceIdeal.S16x128x128.Idx, f j = ∑ b : Fin 16, ∑ c : Fin 128, ∑ d : Fin 128, f (ix3 b c d) := by
  rw [← Equiv.sum_comp idxEquiv3.symm f, Fintype.sum_prod_type]
  refine Finset.sum_congr rfl fun b _ => ?_
  rw [Fintype.sum_prod_type]
  rfl

/-- The composed index of the row sum, at row (b, c), is time step k of that row. -/
theorem idx_row_s (b : Fin 16) (c : Fin 128) (k : Fin 16384) :
    idx_main_call0_v1 (idx_main_call0_v2 (ix3 b c (0 : Fin 1))) k = ix3 b c k :=
  funext fun a => Fin.ext (by match a with | ⟨0, _⟩ => rfl | ⟨1, _⟩ => rfl | ⟨2, _⟩ => rfl)

/-- The norm stage at row (b, c): the row's floored norm. -/
theorem nrm_s (x : (⟨Cert.ReferenceIdeal.S16x128x16384, .f32⟩ : BufTy).Contents (Elt Ideal)) (b : Fin 16) (c : Fin 128) :
    val_main_v2 (F := Ideal) x (ix3 b c (0 : Fin 1)) = Cert.Spec.nrm (arr x b c) := by
  rw [val_main_v2_apply, val_main_v0_apply, val_main_call0_v2_apply, val_main_call0_v1_apply, val_main_v1_apply,
    val_main_cst_apply, val_main_call0_cst_apply]
  simp only [val_main_call0_v0_apply, idx_row_s, Ideal.maximumf_def, Ideal.hostUnary_sqrt_def, Ideal.mulf_def, Ideal.ofBits_def]
  rfl

/-- The keepdims column of norms, broadcast along the time axis, is read at the row. -/
theorem idx_bc_s (b : Fin 16) (c : Fin 128) (k : Fin 16384) : idx_main_v3 (ix3 b c k) = ix3 b c (0 : Fin 1) :=
  funext fun a => Fin.ext (by match a with | ⟨0, _⟩ => rfl | ⟨1, _⟩ => rfl | ⟨2, _⟩ => rfl)

/-- The normalised array at (b, c, k): the entry divided by its row's norm. -/
theorem div_s (x : (⟨Cert.ReferenceIdeal.S16x128x16384, .f32⟩ : BufTy).Contents (Elt Ideal)) (b : Fin 16) (c : Fin 128) (k : Fin 16384) :
    val_main_v4 (F := Ideal) x (ix3 b c k) = Ideal.div (arr x b c k) (Cert.Spec.nrm (arr x b c)) := by
  rw [val_main_v4_apply, val_main_v3_apply, idx_bc_s, nrm_s]
  rfl

/-- The composed index of the row sum, at row (b, c), is time step k of that row. -/
theorem idx_row_t (b : Fin 16) (c : Fin 128) (k : Fin 16384) :
    idx_main_call1_v1 (idx_main_call1_v2 (ix3 b c (0 : Fin 1))) k = ix3 b c k :=
  funext fun a => Fin.ext (by match a with | ⟨0, _⟩ => rfl | ⟨1, _⟩ => rfl | ⟨2, _⟩ => rfl)

/-- The norm stage at row (b, c): the row's floored norm. -/
theorem nrm_t (x : (⟨Cert.ReferenceIdeal.S16x128x16384, .f32⟩ : BufTy).Contents (Elt Ideal)) (b : Fin 16) (c : Fin 128) :
    val_main_v7 (F := Ideal) x (ix3 b c (0 : Fin 1)) = Cert.Spec.nrm (arr x b c) := by
  rw [val_main_v7_apply, val_main_v5_apply, val_main_call1_v2_apply, val_main_call1_v1_apply, val_main_v6_apply,
    val_main_cst_0_apply, val_main_call1_cst_apply]
  simp only [val_main_call1_v0_apply, idx_row_t, Ideal.maximumf_def, Ideal.hostUnary_sqrt_def, Ideal.mulf_def, Ideal.ofBits_def]
  rfl

/-- The keepdims column of norms, broadcast along the time axis, is read at the row. -/
theorem idx_bc_t (b : Fin 16) (c : Fin 128) (k : Fin 16384) : idx_main_v8 (ix3 b c k) = ix3 b c (0 : Fin 1) :=
  funext fun a => Fin.ext (by match a with | ⟨0, _⟩ => rfl | ⟨1, _⟩ => rfl | ⟨2, _⟩ => rfl)

/-- The normalised array at (b, c, k): the entry divided by its row's norm. -/
theorem div_t (x : (⟨Cert.ReferenceIdeal.S16x128x16384, .f32⟩ : BufTy).Contents (Elt Ideal)) (b : Fin 16) (c : Fin 128) (k : Fin 16384) :
    val_main_v9 (F := Ideal) x (ix3 b c k) = Ideal.div (arr x b c k) (Cert.Spec.nrm (arr x b c)) := by
  rw [val_main_v9_apply, val_main_v8_apply, idx_bc_t, nrm_t]
  rfl

/-- The contraction's composed indices at entry (b, c, d): row c on the left, row d on the right, at time step k. -/
theorem lidx_tt (b : Fin 16) (c d : Fin 128) (k : Fin 16384) : lidx_main_v10 (ix3 b c d) k = ix3 b c k :=
  funext fun a => Fin.ext (by match a with | ⟨0, _⟩ => rfl | ⟨1, _⟩ => rfl | ⟨2, _⟩ => rfl)
theorem ridx_tt (b : Fin 16) (c d : Fin 128) (k : Fin 16384) : ridx_main_v10 (ix3 b c d) k = ix3 b d k :=
  funext fun a => Fin.ext (by match a with | ⟨0, _⟩ => rfl | ⟨1, _⟩ => rfl | ⟨2, _⟩ => rfl)

/-- The teacher–teacher Gram array at (b, c, d): the normalised inner product of the two rows. -/
theorem gram_tt (x : (⟨Cert.ReferenceIdeal.S16x128x16384, .f32⟩ : BufTy).Contents (Elt Ideal)) (b : Fin 16) (c d : Fin 128) :
    val_main_v10 (F := Ideal) x (ix3 b c d) = Cert.Spec.gram (arr x b c) (arr x b d) := by
  rw [val_main_v10_apply]
  unfold Cert.Spec.gram
  refine Finset.sum_congr rfl fun k _ => ?_
  rw [lidx_tt, ridx_tt, div_t, div_t]

/-- The teacher–teacher total: zero plus, over the batches, the sum of the squared Gram entries. -/
theorem tot_tt (x : (⟨Cert.ReferenceIdeal.S16x128x16384, .f32⟩ : BufTy).Contents (Elt Ideal)) (i : Cert.ReferenceIdeal.S_.Idx) :
    val_main_v12 (F := Ideal) x i = Cert.Spec.Z + ∑ b : Fin 16, Cert.Spec.sq (arr x) (arr x) b := by
  rw [val_main_v12_apply, sum_idx3, val_main_cst_1_apply, Ideal.ofBits_def]
  refine congrArg (Cert.Spec.Z + ·) (Finset.sum_congr rfl fun b _ => ?_)
  unfold Cert.Spec.sq
  refine Finset.sum_congr rfl fun c _ => Finset.sum_congr rfl fun d _ => ?_
  rw [val_main_v11_apply, gram_tt]
  rfl

/-- The contraction's composed indices at entry (b, c, d): row c on the left, row d on the right, at time step k. -/
theorem lidx_ss (b : Fin 16) (c d : Fin 128) (k : Fin 16384) : lidx_main_v14 (ix3 b c d) k = ix3 b c k :=
  funext fun a => Fin.ext (by match a with | ⟨0, _⟩ => rfl | ⟨1, _⟩ => rfl | ⟨2, _⟩ => rfl)
theorem ridx_ss (b : Fin 16) (c d : Fin 128) (k : Fin 16384) : ridx_main_v14 (ix3 b c d) k = ix3 b d k :=
  funext fun a => Fin.ext (by match a with | ⟨0, _⟩ => rfl | ⟨1, _⟩ => rfl | ⟨2, _⟩ => rfl)

/-- The student–student Gram array at (b, c, d): the normalised inner product of the two rows. -/
theorem gram_ss (x : (⟨Cert.ReferenceIdeal.S16x128x16384, .f32⟩ : BufTy).Contents (Elt Ideal)) (b : Fin 16) (c d : Fin 128) :
    val_main_v14 (F := Ideal) x (ix3 b c d) = Cert.Spec.gram (arr x b c) (arr x b d) := by
  rw [val_main_v14_apply]
  unfold Cert.Spec.gram
  refine Finset.sum_congr rfl fun k _ => ?_
  rw [lidx_ss, ridx_ss, div_s, div_s]

/-- The student–student total: zero plus, over the batches, the sum of the squared Gram entries. -/
theorem tot_ss (x : (⟨Cert.ReferenceIdeal.S16x128x16384, .f32⟩ : BufTy).Contents (Elt Ideal)) (i : Cert.ReferenceIdeal.S_.Idx) :
    val_main_v16 (F := Ideal) x i = Cert.Spec.Z + ∑ b : Fin 16, Cert.Spec.sq (arr x) (arr x) b := by
  rw [val_main_v16_apply, sum_idx3, val_main_cst_3_apply, Ideal.ofBits_def]
  refine congrArg (Cert.Spec.Z + ·) (Finset.sum_congr rfl fun b _ => ?_)
  unfold Cert.Spec.sq
  refine Finset.sum_congr rfl fun c _ => Finset.sum_congr rfl fun d _ => ?_
  rw [val_main_v15_apply, gram_ss]
  rfl

/-- The contraction's composed indices at entry (b, c, d): row c on the left, row d on the right, at time step k. -/
theorem lidx_st (b : Fin 16) (c d : Fin 128) (k : Fin 16384) : lidx_main_v19 (ix3 b c d) k = ix3 b c k :=
  funext fun a => Fin.ext (by match a with | ⟨0, _⟩ => rfl | ⟨1, _⟩ => rfl | ⟨2, _⟩ => rfl)
theorem ridx_st (b : Fin 16) (c d : Fin 128) (k : Fin 16384) : ridx_main_v19 (ix3 b c d) k = ix3 b d k :=
  funext fun a => Fin.ext (by match a with | ⟨0, _⟩ => rfl | ⟨1, _⟩ => rfl | ⟨2, _⟩ => rfl)

/-- The student–teacher Gram array at (b, c, d): the normalised inner product of the two rows. -/
theorem gram_st (x0 x1 : (⟨Cert.ReferenceIdeal.S16x128x16384, .f32⟩ : BufTy).Contents (Elt Ideal)) (b : Fin 16) (c d : Fin 128) :
    val_main_v19 (F := Ideal) x0 x1 (ix3 b c d) = Cert.Spec.gram (arr x0 b c) (arr x1 b d) := by
  rw [val_main_v19_apply]
  unfold Cert.Spec.gram
  refine Finset.sum_congr rfl fun k _ => ?_
  rw [lidx_st, ridx_st, div_s, div_t]

/-- The student–teacher total: zero plus, over the batches, the sum of the squared Gram entries. -/
theorem tot_st (x0 x1 : (⟨Cert.ReferenceIdeal.S16x128x16384, .f32⟩ : BufTy).Contents (Elt Ideal)) (i : Cert.ReferenceIdeal.S_.Idx) :
    val_main_v21 (F := Ideal) x0 x1 i = Cert.Spec.Z + ∑ b : Fin 16, Cert.Spec.sq (arr x0) (arr x1) b := by
  rw [val_main_v21_apply, sum_idx3, val_main_cst_5_apply, Ideal.ofBits_def]
  refine congrArg (Cert.Spec.Z + ·) (Finset.sum_congr rfl fun b _ => ?_)
  unfold Cert.Spec.sq
  refine Finset.sum_congr rfl fun c _ => Finset.sum_congr rfl fun d _ => ?_
  rw [val_main_v20_apply, gram_st]
  rfl

/-- The reference's result is the loss of the student array against the teacher array. -/
theorem ref_eq (x0 x1 : (⟨Cert.ReferenceIdeal.S16x128x16384, .f32⟩ : BufTy).Contents (Elt Ideal)) :
    Cert.ReferenceIdeal.Read.val_main_v24 (F := Ideal) x0 x1 = fun _ => Cert.Spec.loss (arr x0) (arr x1) := by
  funext i
  rw [val_main_v24_apply, val_main_v18_apply, val_main_v23_apply, val_main_v13_apply, val_main_v17_apply, val_main_v22_apply,
    tot_tt, tot_ss, tot_st, val_main_cst_2_apply, val_main_cst_4_apply, val_main_cst_6_apply, val_main_cst_7_apply]
  rfl

end Cert.RefLoss

end
-- ==== Proof.FiniteInputs.lean ====
/-
  The precondition says: every element of both input arrays has absolute value strictly below
  plus infinity. Over the extended reals an element x with max x (-x) < ⊤ is neither ⊤ nor ⊥, so it is
  (the coercion of) a real number. The printed predicate is two "for all elements" reductions by
  `and`, joined by one more `and`; the claim that the result is the word 1 is decoded element by
  element: both reductions are 1, hence every compared element is 1, hence the strict inequality.
-/
import proofs.«181745_j85555748537091_2_alg».proof.Pre_finite_inputs
import proofs.«181745_j85555748537091_2_alg».proof.Proof.Gen.Pre_finite_inputs
import Idealize.ShloMosaic.PureOps.Ideal.Laws
import Idealize.ShloMosaic.Lib.ValueIdx
import Idealize.ShloMosaic.Lib.ReduceAll

noncomputable section

open Idealize.ShloMosaic Idealize.ShloMosaic.ValueIdx

namespace Cert.FiniteInputs

open Cert.Pre_finite_inputs

/-- The rank-0 shape has exactly one index. -/
instance : Subsingleton S_.Idx := ⟨fun a b => funext fun d => d.elim0⟩

/-- The word 0x7F800000 encodes plus infinity. -/
theorem inf_word : Ideal.ofBits .f32 0x7F800000#32 = (⊤ : EReal) := by
  simp [Ideal.ofBits, Ideal.ieee]

/-- A boolean's one-bit word is 1 exactly when the boolean is true. -/
theorem ofBool_eq_one (b : Bool) : BitVec.ofBool b = 1#1 ↔ b = true := by cases b <;> decide

/-- An extended real whose absolute value is strictly below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The compared element: "|x| < +inf" holding as a one-bit word makes x real. -/
theorem real_of_cmp (x : EReal)
    (h : Ideal.cmp .olt (max x (-x)) (Ideal.ofBits .f32 0x7F800000#32) = 1#1) : ∃ r : ℝ, x = (r : EReal) := by
  rw [inf_word] at h
  have h' : BitVec.ofBool (decide (max x (-x) < (⊤ : EReal))) = 1#1 := h
  rw [ofBool_eq_one] at h'
  exact real_of_abs_lt_top x (of_decide_eq_true h')

/-- The precondition decoded: every element of both arrays is a real number. -/
theorem real_of_pre [Cert.Pre_finite_inputs.Facts] (a0 a1 : FVec Ideal Cert.Pre_finite_inputs.S16x128x16384 .f32)
    (h : Cert.Pre_finite_inputs.fn (F := Ideal) a0 a1 = fun _ => 1#1) :
    (∀ i, ∃ r : ℝ, a0 i = (r : EReal)) ∧ (∀ i, ∃ r : ℝ, a1 i = (r : EReal)) := by
  have e := congrFun h ValueIdx.ix0
  dsimp only [Cert.Pre_finite_inputs.fn] at e
  obtain ⟨e0, e1⟩ := IntOp.andi_eq_one.1 e
  refine ⟨fun i => ?_, fun i => ?_⟩
  · exact real_of_cmp (a0 i) (Host.reduce_andi_all _ _ _ _ _ e0 i)
  · exact real_of_cmp (a1 i) (Host.reduce_andi_all _ _ _ _ _ e1 i)

end Cert.FiniteInputs

end
-- ==== Proof.KValue.lean ====
/-
  The algebraic claim's two sides are one number. The kernel program ends with the host tail of the row-by-row array
  of per-batch totals; each total is, by the payload read at an index, the streamed arrangement's squared-Gram total of
  the batch's rows; under finite inputs the streamed arrangement is the reference's (the norms agree, and scaling by
  the reciprocal norms after the contraction is dividing each entry before it); and the reference program's result is
  the loss of the two argument arrays.
-/
import proofs.«181745_j85555748537091_2_alg».proof.Defs
import proofs.«181745_j85555748537091_2_alg».proof.Proof.KRun
import proofs.«181745_j85555748537091_2_alg».proof.Proof.TailRead
import proofs.«181745_j85555748537091_2_alg».proof.Proof.PayloadRead
import proofs.«181745_j85555748537091_2_alg».proof.Proof.SpecLaw
import proofs.«181745_j85555748537091_2_alg».proof.Proof.RefLoss
import proofs.«181745_j85555748537091_2_alg».proof.Proof.FiniteInputs

noncomputable section

open Idealize.ShloMosaic Idealize.ShloMosaic.TcCoe Idealize.SL.Sem Idealize.ShloMosaic.ValueIdx

namespace Cert.KernelIdeal.KValue

open Cert.KernelIdeal Cert.KernelIdeal.Gen Cert.KernelIdeal.Block Cert.KernelIdeal.Final Cert.KernelIdeal.PayloadRead

variable (m : (ℓ : Loc nD τ sig) → Buf (Elt Ideal) ℓ)

/-- An argument array by coordinates. -/
def arrOf (x : S16x128x16384.Idx → EReal) : Cert.Spec.Arr := fun b r k => x (ix3 b r k)

/-- Lane `j < 3` of row `b` of the array the call leaves is the batch's total of the streamed arrangement. -/
theorem outArr_lane (c : Dev nD) (b : Fin 16) (j : Fin 3) :
    outArr m c (ix3 b (0 : Fin 1) (⟨j.val, by have := j.isLt; omega⟩ : Fin 128))
      = Cert.Spec.ktot (arrOf (m ((c : Thread nD τ).loc main_arg0))) (arrOf (m ((c : Thread nD τ).loc main_arg1))) b j := by
  match j with
  | ⟨0, _⟩ =>
    exact outBlock_ss _ _ _ _ (arrOf (m ((c : Thread nD τ).loc main_arg0)) b) (arrOf (m ((c : Thread nD τ).loc main_arg1)) b)
      (iblk0_pt0 m c b) (iblk0_pt1 m c b) (iblk1_pt0 m c b) (iblk1_pt1 m c b)
  | ⟨1, _⟩ =>
    exact outBlock_st _ _ _ _ (arrOf (m ((c : Thread nD τ).loc main_arg0)) b) (arrOf (m ((c : Thread nD τ).loc main_arg1)) b)
      (iblk0_pt0 m c b) (iblk0_pt1 m c b) (iblk1_pt0 m c b) (iblk1_pt1 m c b)
  | ⟨2, _⟩ =>
    exact outBlock_tt _ _ _ _ (arrOf (m ((c : Thread nD τ).loc main_arg0)) b) (arrOf (m ((c : Thread nD τ).loc main_arg1)) b)
      (iblk0_pt0 m c b) (iblk0_pt1 m c b) (iblk1_pt0 m c b) (iblk1_pt1 m c b)

/-- The kernel program's result, for finite inputs: the loss of the two argument arrays. -/
theorem result_eq (c : Dev nD)
    (hS : ∀ i, ∃ r : ℝ, m ((c : Thread nD τ).loc main_arg0) i = (r : EReal))
    (hT : ∀ i, ∃ r : ℝ, m ((c : Thread nD τ).loc main_arg1) i = (r : EReal)) :
    Tail.tail (F := Ideal) (outArr m c)
      = fun _ => Cert.Spec.loss (arrOf (m ((c : Thread nD τ).loc main_arg0))) (arrOf (m ((c : Thread nD τ).loc main_arg1))) := by
  funext i
  rw [TailRead.tail_eq, show (fun (b : Fin 16) (j : Fin 3) => outArr m c (ix3 b (0 : Fin 1) (⟨j.val, by have := j.isLt; omega⟩ : Fin 128)))
      = Cert.Spec.ktot (arrOf (m ((c : Thread nD τ).loc main_arg0))) (arrOf (m ((c : Thread nD τ).loc main_arg1))) from
    funext fun b => funext fun j => outArr_lane m c b j]
  exact Cert.Spec.lossOf_ktot _ _ (fun b r k => hS (ix3 b r k)) (fun b r k => hT (ix3 b r k))

end Cert.KernelIdeal.KValue

end
-- ==== Proof.lean ====
/-
  The certificate: the three programs run and keep their arguments; the idealization rewrote nothing; and at the ideal
  values the kernel program and the reference end with the same number — the distillation loss
  `(mean(t,t) + mean(s,s)) − 2 · mean(s,t)` of the squared normalised Gram matrices — the kernel by streaming the time
  axis in two tiles, accumulating raw sums of squares and a packed raw Gram matrix and normalising once at the end, the
  reference by normalising every entry first. The two arrangements agree on finite inputs.
-/
import proofs.«181745_j85555748537091_2_alg».proof.Defs
import proofs.«181745_j85555748537091_2_alg».proof.Proof.Gen.Kernel
import proofs.«181745_j85555748537091_2_alg».proof.Proof.Gen.Kernel.Skeleton
import proofs.«181745_j85555748537091_2_alg».proof.Proof.Gen.Kernel.Launch
import proofs.«181745_j85555748537091_2_alg».proof.Proof.Gen.Kernel.Points
import proofs.«181745_j85555748537091_2_alg».proof.Proof.Gen.Kernel.Frame
import proofs.«181745_j85555748537091_2_alg».proof.Proof.Gen.KernelIdeal
import proofs.«181745_j85555748537091_2_alg».proof.Proof.Gen.KernelIdeal.Skeleton
import proofs.«181745_j85555748537091_2_alg».proof.Proof.Gen.KernelIdeal.Launch
import proofs.«181745_j85555748537091_2_alg».proof.Proof.Gen.KernelIdeal.Points
import proofs.«181745_j85555748537091_2_alg».proof.Proof.Gen.KernelIdeal.Frame
import proofs.«181745_j85555748537091_2_alg».proof.Proof.Gen.ReferenceIdeal
import proofs.«181745_j85555748537091_2_alg».proof.Proof.Gen.Pre_finite_inputs
import proofs.«181745_j85555748537091_2_alg».proof.Proof.Gen.ReferenceIdeal.Run
import proofs.«181745_j85555748537091_2_alg».proof.Proof.Gen.ReferenceIdeal.Read
import proofs.«181745_j85555748537091_2_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the loss of the (agreeing, finite) argument arrays. -/
theorem algebraic : Cert.algebraic_KernelIdeal_ReferenceIdeal := by
  intro m ρ m' ρ' hpre hagree
  refine ⟨fun c => Cert.KernelIdeal.Tail.tail (F := Ideal) (Cert.KernelIdeal.Final.outArr m c), Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨hS, hT⟩ := Cert.FiniteInputs.real_of_pre _ _ (hpre c)
  rw [Cert.ReferenceIdeal.Read.val_main_v24_eq, Cert.RefLoss.ref_eq, (hagree c).1, (hagree c).2]
  exact (Cert.KernelIdeal.KValue.result_eq m c hS hT).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
